-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S128x64 .f32) (main_arg10 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S1x64 : Shape := ⟨2, ![1, 64]⟩
abbrev S50000x64 : Shape := ⟨2, ![50000, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 76
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x64, .f32⟩
  | .hbm, ⟨75, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x64, .f32⟩
  | 9 => ⟨S128x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x128, .f32⟩
  | 39 => ⟨S50000x128, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S_, .f32⟩
  | 63 => ⟨S800000, .f32⟩
  | 64 => ⟨S_, .f32⟩
  | 65 => ⟨S50000, .f32⟩
  | 66 => ⟨S800000x1, .i32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x128, .f32⟩
  | 73 => ⟨S50000x128, .f32⟩
  | 74 => ⟨S50000x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S_, .f32⟩
  | 97 => ⟨S800000, .f32⟩
  | 98 => ⟨S_, .f32⟩
  | 99 => ⟨S50000, .f32⟩
  | 100 => ⟨S800000x1, .i32⟩
  | 101 => ⟨S50000, .f32⟩
  | 102 => ⟨S_, .f32⟩
  | 103 => ⟨S50000, .f32⟩
  | 104 => ⟨S50000, .f32⟩
  | 105 => ⟨S50000x1, .f32⟩
  | 106 => ⟨S50000x128, .f32⟩
  | 107 => ⟨S50000x128, .f32⟩
  | 108 => ⟨S50000x64, .f32⟩
  | 109 => ⟨S50000x64, .f32⟩
  | 110 => ⟨S50000x64, .f32⟩
  | 111 => ⟨S1x64, .f32⟩
  | 112 => ⟨S50000x64, .f32⟩
  | 113 => ⟨S50000x64, .f32⟩
  | 114 => ⟨S_, .f32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x64, .f32⟩
  | 121 => ⟨S50000x64, .f32⟩
  | 122 => ⟨S50000x64, .f32⟩
  | 123 => ⟨S_, .f32⟩
  | 124 => ⟨S50000, .f32⟩
  | 125 => ⟨S50000x1, .f32⟩
  | 126 => ⟨S50000x1, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call2_cst : Ref sig .tc := ⟨.hbm, 114, rfl⟩
abbrev main_call2_v0 : Ref sig .tc := ⟨.hbm, 115, rfl⟩
abbrev main_call2_cst_0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_cst_1 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_v81 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel program's run, with every buffer it leaves named.

  @main is three tiled regions among stretches of host operations.  Run from a memory `m`, the contents of the
  unscoped buffers at each boundary between segments are a fold through @main: a stretch of host operations applies
  its operations in order, a region replaces its result array by what its tiles wrote back and keeps everything else.
  Every weakly fair execution terminates, and every unscoped buffer ends at the last term `W6` of that fold — the
  argument arrays and the result array among them.  This is the library's theorem on a program given as a list of
  segments, applied to this program's segments, with the whole final valuation kept in the post.
-/
import proofs.«175840_j87720412053738_2_alg».proof.Proof.KernelIdealFrameP

set_option maxRecDepth 16384

noncomputable section

namespace Cert.Sage.K

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thread state a core starts from: its unscoped buffers at the launch contents, its generator register at some
    state, nothing owed. -/
abbrev T₀ (c : Dev nD) : sProp 𝕄 :=
  iprop(StableHlo.held (c : Thread nD τ) (Pipeline.ucRefs τ sig) (W0 m ρ c) ∗ R c)

/-- The launch deals the pipelines' staging cells and tokens; no other ghost resource is needed. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The last thread state, read against a final state: every unscoped buffer holds the last boundary's contents. -/
theorem last_read (c : Dev nD) (s' : Phys nD τ sig (Elt F)) :
    iprop(Tₙ m ρ c ∗ SI s') ⊢ |={Set.univ}=> iprop(⌜∀ b ∈ Pipeline.ucRefs τ sig, s'.mem.mem (((c : Thread nD τ)).1, b) = W6 m ρ c b⌝ ∗ SI s' : sProp 𝕄) := by
  iintro ⟨⟨Hh, -⟩, HSI⟩
  unfold StableHlo.held
  imodintro
  iapply (pointsTo_read_all (Pipeline.ucRefs τ sig) (fun b => (((c : Thread nD τ)).1, b)) (W6 m ρ c) s')
  isplitl [Hh] <;> iassumption

set_option backward.isDefEq.respectTransparency.types false in
/-- THE RUN: from any memory with zero counters every weakly fair execution of @main on the TensorCores terminates,
    nothing faulting, and every unscoped buffer ends at the last boundary's contents `W6`. -/
theorem run_fold : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := T₀ m ρ) (Tₙ := Tₙ m ρ)
    (hch := ⟨fun _ => .rfl, fun _ => .rfl, fun _ => .rfl, fun _ => .rfl, fun _ => .rfl, fun _ => .rfl, fun _ => .rfl⟩)
    (hinit := by
      -- what the launch gives every core is its first thread state
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := last_read m ρ)
    (hQ := fun s h => h)

/-- The run with the result array and the argument arrays singled out. -/
theorem run_result : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v52 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c)⟩) (run_fold m ρ)

end Cert.Sage.K

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibEntryReads.lean ====
/-
  Operations of a kernel body and of the host read at one entry, at the extended reals: rewriting rules for pushing
  an index through a body.

  A product whose dimension numbers are those of a plain matrix product ("contract axis 1 of the left operand with
  axis 0 of the right, no batch axes") — the kernel's into the zero accumulator, or the host's — of an [A, K] and a
  [K, B] matrix, read at (p, q), is ∑ₖ l (p, k) · r (k, q): only row p of the left operand enters.  Both are stated
  for ANY dimension record equal to the plain one, so that a program's own record is rewritten without restating it.
  The reciprocal square root, the exponential and the logarithm, of a vector or of a host tensor, act entry by entry.
  Together with the library's entrywise rules for the arithmetic operations these push a whole body applied to an
  index (p, q) down to the entries of its loaded blocks, by one simplification pass.
-/
import Idealize.ShloMosaic.Lib.ValueLayout
import proofs.«175840_j87720412053738_2_alg».proof.Proof.LibMatmul2
import proofs.«175840_j87720412053738_2_alg».proof.Proof.LibKeepdims

noncomputable section

open scoped BigOperators

namespace Cert.Lib

open Idealize.ShloMosaic Idealize.ShloMosaic.ValueIdx

variable {A K B : ℕ} {φ₁ φ₂ φ : FTy} {s : Shape}

/-- A product whose dimension numbers are those of a plain matrix product, into the zero accumulator, at (p, q). -/
theorem matmul_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    matmul D none l r (constant ⟨2, ![A, B]⟩ .f32 0x00000000#32) (ix2 p q) = ∑ k : Fin K, l (ix2 p k) * r (ix2 k q) := by
  subst hD
  exact Cert.Lib.matmul2_zero_apply wf l r p q

/-- The host's product with those dimension numbers, at (p, q). -/
theorem dotGeneral_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    Host.dotGeneral D none l r (ix2 p q) = ∑ k : Fin K, l (ix2 p k) * r (ix2 k q) := by
  subst hD
  refine (Ideal.dotGeneral_apply (Cert.Lib.plain2 wf) none .single l r (ix2 p q)).trans ?_
  exact (Ideal.matmul_constant_zero_apply (Cert.Lib.plain2 wf) none l r (ix2 p q)).symm.trans
    (Cert.Lib.matmul2_zero_apply wf l r p q)

/-- The pointwise transcendental operations, of a kernel vector and of a host tensor, act entry by entry. -/
theorem rsqrt_apply (a : FVec Ideal s φ) (i : s.Idx) : rsqrt a i = Ideal.rsqrt (a i) := rfl
theorem exp_apply (a : FVec Ideal s φ) (i : s.Idx) : exp a i = Ideal.exp (a i) := rfl
theorem log_apply (a : FVec Ideal s φ) (i : s.Idx) : log a i = Ideal.log (a i) := rfl
theorem host_rsqrt_apply (a : FVec Ideal s φ) (i : s.Idx) : Host.rsqrt a i = Ideal.rsqrt (a i) := rfl
theorem host_exp_apply (a : FVec Ideal s φ) (i : s.Idx) : Host.exp a i = Ideal.exp (a i) := rfl
theorem host_log_apply (a : FVec Ideal s φ) (i : s.Idx) : Host.log a i = Ideal.log (a i) := rfl

end Cert.Lib

end
-- ==== Proof.LibHostReads.lean ====
/-
  The host's layout operations and row reductions read at one entry, and as whole arrays, at the extended reals.

  A vector repeated along the rows of a table reads, at (p, q), the vector at q; a scalar constant repeated over any
  shape reads the constant's value; a column (one value per row) repeated along the row reads, at (p, c), row p's value.
  A reduction along the last axis of a table with a maximum body, from a constant, is at row p the running maximum
  of the row's entries from that constant; the float sum from zero is the sum of the row's entries.
-/
import Idealize.ShloMosaic.Lib.Pipeline.Value
import Idealize.ShloMosaic.Lib.ValueIdx
import Idealize.ShloMosaic.PureOps.Ideal.Laws
import proofs.«175840_j87720412053738_2_alg».proof.Proof.LibKeepdims

noncomputable section

open scoped BigOperators

namespace Cert.Lib

open Idealize.ShloMosaic Idealize.ShloMosaic.ValueIdx

variable {A B n : ℕ} {α : Type}

/-- A vector of length B made a one-row matrix and repeated along A rows reads, at (p, q), the vector at q. -/
theorem bcast_vec_rows_apply (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    broadcastInDim ⟨2, ![A, B]⟩ ![0, 1] h2 (broadcastInDim ⟨2, ![1, B]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => show (0 : ℕ) = if (1 : ℕ) = 1 then 0 else p.val; rw [if_pos rfl]
    | ⟨1, _⟩ =>
      show q.val = if B = 1 then 0 else q.val
      split
      · have := q.isLt; omega
      · rfl
  · match a with
    | ⟨0, _⟩ =>
      show q.val = if B = 1 then 0 else q.val
      split
      · have := q.isLt; omega
      · rfl

/-- A scalar constant repeated over a shape reads the constant's value everywhere. -/
theorem bcast_scalar_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply ![] h _ i ix0 fun a => a.elim0).trans rfl

/-- A vector of length A made a column reads, at (p, 0), the vector at p. -/
theorem bcast_col_apply (v : (⟨1, ![A]⟩ : Shape).Idx → α) (h1 : (⟨1, ![A]⟩ : Shape).BroadcastsInDim ⟨2, ![A, 1]⟩ ![0])
    (p : Fin A) (u : Fin 1) : broadcastInDim ⟨2, ![A, 1]⟩ ![0] h1 v (ix2 p u) = v (ix1 p) := by
  refine broadcastInDim_apply ![0] h1 v (ix2 p u) (ix1 p) fun a => ?_
  match a with
  | ⟨0, _⟩ =>
    show p.val = if A = 1 then 0 else p.val
    split
    · have := p.isLt; omega
    · rfl

/-- A column repeated along the row reads, at (p, c), the column at (p, 0). -/
theorem bcast_col_rows_apply (w : (⟨2, ![A, 1]⟩ : Shape).Idx → α)
    (h2 : (⟨2, ![A, 1]⟩ : Shape).BroadcastsInDim ⟨2, ![A, n]⟩ ![0, 1]) (p : Fin A) (c : Fin n) :
    broadcastInDim ⟨2, ![A, n]⟩ ![0, 1] h2 w (ix2 p c) = w (ix2 p (0 : Fin 1)) := by
  refine broadcastInDim_apply ![0, 1] h2 w (ix2 p c) (ix2 p (0 : Fin 1)) fun a => ?_
  match a with
  | ⟨0, _⟩ =>
    show p.val = if A = 1 then 0 else p.val
    split
    · have := p.isLt; omega
    · rfl
  | ⟨1, _⟩ => show (0 : ℕ) = if (1 : ℕ) = 1 then 0 else c.val; rw [if_pos rfl]

/-- The host's reduction with a maximum body along the last axis, from a constant, at row p. -/
theorem host_rowMax_apply (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) (p : Fin A) :
    Host.reduce FloatOps.maximumf x (constant (⟨0, ![]⟩ : Shape) .f32 w) h' hu (ix1 p)
      = (Finset.univ : Finset (Fin n)).fold max (Ideal.ofBits .f32 w) (fun k => x (ix2 p k)) := by
  rw [Host.reduce_eq_fold_single FloatOps.maximumf x _ h' h hu]
  have hf : (x ∘ h.lift (ix1 p)) = fun k : Fin n => x (ix2 p k) := funext fun k => congrArg x (Cert.Lib.lift_row h p k)
  exact congrArg (fun f => Finset.fold max (Ideal.ofBits .f32 w) f (Finset.univ : Finset (Fin n))) hf

/-- The host's float sum along the last axis, from zero, at row p. -/
theorem host_rowSum_apply (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) (p : Fin A) :
    Host.reduceAdd x (constant (⟨0, ![]⟩ : Shape) .f32 0x00000000#32) h' hu (ix1 p) = ∑ k : Fin n, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (Cert.Lib.lift_row h p k)

/-! ## The same readings for whole arrays

  Each of the layout operations and reductions above as ONE function of the result index. -/

theorem bcast_vec_rows_eq (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) :
    broadcastInDim ⟨2, ![A, B]⟩ ![0, 1] h2 (broadcastInDim ⟨2, ![1, B]⟩ ![1] h1 v)
      = fun i => v (ix1 (⟨(i 1).val, idx2_lt1 i⟩ : Fin B)) := by
  funext i
  obtain ⟨p, q, rfl⟩ : ∃ (p : Fin A) (q : Fin B), i = ix2 p q := ⟨i 0, i 1, eq_ix2 i⟩
  exact bcast_vec_rows_apply v h1 h2 p q

theorem bcast_scalar_eq {s : Shape} (h : (⟨0, ![]⟩ : Shape).BroadcastsInDim s ![]) (w : BitVec 32) :
    broadcastInDim s ![] h (constant (F := Ideal) ⟨0, ![]⟩ .f32 w) = fun _ => Ideal.ofBits .f32 w :=
  funext fun i => bcast_scalar_apply h w i

theorem bcast_col_eq (v : (⟨1, ![A]⟩ : Shape).Idx → α) (h1 : (⟨1, ![A]⟩ : Shape).BroadcastsInDim ⟨2, ![A, 1]⟩ ![0]) :
    broadcastInDim ⟨2, ![A, 1]⟩ ![0] h1 v = fun i => v (ix1 (⟨(i 0).val, idx2_lt0 i⟩ : Fin A)) := by
  funext i
  obtain ⟨p, u, rfl⟩ : ∃ (p : Fin A) (u : Fin 1), i = ix2 p u := ⟨i 0, i 1, eq_ix2 i⟩
  exact bcast_col_apply v h1 p u

theorem bcast_col_rows_eq (w : (⟨2, ![A, 1]⟩ : Shape).Idx → α)
    (h2 : (⟨2, ![A, 1]⟩ : Shape).BroadcastsInDim ⟨2, ![A, n]⟩ ![0, 1]) :
    broadcastInDim ⟨2, ![A, n]⟩ ![0, 1] h2 w = fun i => w (ix2 (⟨(i 0).val, idx2_lt0 i⟩ : Fin A) (0 : Fin 1)) := by
  funext i
  obtain ⟨p, c, rfl⟩ : ∃ (p : Fin A) (c : Fin n), i = ix2 p c := ⟨i 0, i 1, eq_ix2 i⟩
  exact bcast_col_rows_apply w h2 p c

theorem host_rowMax_eq (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) :
    Host.reduce FloatOps.maximumf x (constant (⟨0, ![]⟩ : Shape) .f32 w) h' hu
      = fun j => (Finset.univ : Finset (Fin n)).fold max (Ideal.ofBits .f32 w) (fun k => x (ix2 (⟨(j 0).val, (j 0).isLt⟩ : Fin A) k)) := by
  funext j
  obtain ⟨p, rfl⟩ : ∃ p : Fin A, j = ix1 p := ⟨j 0, eq_ix1 j⟩
  exact host_rowMax_apply h x w h' hu p

theorem host_rowSum_eq (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) :
    Host.reduceAdd x (constant (⟨0, ![]⟩ : Shape) .f32 0x00000000#32) h' hu
      = fun j => ∑ k : Fin n, x (ix2 (⟨(j 0).val, (j 0).isLt⟩ : Fin A) k) := by
  funext j
  obtain ⟨p, rfl⟩ : ∃ p : Fin A, j = ix1 p := ⟨j 0, eq_ix1 j⟩
  exact host_rowSum_apply h x h' hu p

end Cert.Lib

end
-- ==== Proof.LibDenseLayers.lean ====
/-
  One layer of a graph-SAGE network with mean aggregation, entry by entry, on the extended reals.

  A layer takes the aggregated neighbour features a (N rows of K entries), the node features x (same shape), two
  weight matrices wl, wr (K rows of B entries) and a bias vector b (B entries); its value at (p, q) before the
  activation is

      pre a x wl wr b p q = ∑ₖ a(p,k)·wl(k,q) + ∑ₖ x(p,k)·wr(k,q) + b(q).

  A hidden layer takes the maximum of that with zero; the last layer is a log-softmax along each row: with
  M(p) the running maximum of row p of `pre` from −∞,  out(p,q) = (pre(p,q) − M(p)) − log ∑ₖ exp(pre(p,k) − M(p)).
  Both are stated as ONE function of the result index.  Then the two ways the programs spell these: a tile of rows
  computed by two matrix products into zero accumulators, their sum, a bias row repeated along the rows, and the
  activation (the tile form reads the bias as a one-row matrix); and the same on whole arrays with the host's
  products, sums and repetitions.  Only sums, products, maxima and differences occur, each applied in the same
  order on both sides, so no law of the extended reals beyond "the maximum of a bound with something at least that
  bound" is needed, and nothing has to be finite.
-/
import Idealize.ShloMosaic.PureOps.Ideal.Laws
import Idealize.ShloMosaic.Lib.ValueIdx
import Idealize.ShloMosaic.Lib.ValueLayout
import proofs.«175840_j87720412053738_2_alg».proof.Proof.LibEntryReads
import proofs.«175840_j87720412053738_2_alg».proof.Proof.LibHostReads

noncomputable section

open scoped BigOperators

namespace Cert.Sage

open Idealize.ShloMosaic Idealize.ShloMosaic.ValueIdx

variable {N K B : ℕ}

/-- The layer before its activation, at row p and column q. -/
def pre (a x : FVec Ideal ⟨2, ![N, K]⟩ .f32) (wl wr : FVec Ideal ⟨2, ![K, B]⟩ .f32) (b : FVec Ideal ⟨1, ![B]⟩ .f32)
    (p : Fin N) (q : Fin B) : EReal :=
  (∑ k : Fin K, a (ix2 p k) * wl (ix2 k q)) + (∑ k : Fin K, x (ix2 p k) * wr (ix2 k q)) + b (ix1 q)

/-- A hidden layer: the maximum of the pre-activation with zero, as one function of the result index. -/
def hidden (a x : FVec Ideal ⟨2, ![N, K]⟩ .f32) (wl wr : FVec Ideal ⟨2, ![K, B]⟩ .f32) (b : FVec Ideal ⟨1, ![B]⟩ .f32) :
    FVec Ideal ⟨2, ![N, B]⟩ .f32 := fun i =>
  max (pre a x wl wr b ⟨(i 0).val, idx2_lt0 i⟩ ⟨(i 1).val, idx2_lt1 i⟩) (Ideal.ofBits .f32 0x00000000#32)

/-- The running maximum of row p of the pre-activation, from −∞. -/
def rowTop (a x : FVec Ideal ⟨2, ![N, K]⟩ .f32) (wl wr : FVec Ideal ⟨2, ![K, B]⟩ .f32) (b : FVec Ideal ⟨1, ![B]⟩ .f32)
    (p : Fin N) : EReal :=
  (Finset.univ : Finset (Fin B)).fold max (Ideal.ofBits .f32 0xFF800000#32) (fun k => pre a x wl wr b p k)

/-- The last layer at row p and column q: the log-softmax of row p of the pre-activation. -/
def lsm (a x : FVec Ideal ⟨2, ![N, K]⟩ .f32) (wl wr : FVec Ideal ⟨2, ![K, B]⟩ .f32) (b : FVec Ideal ⟨1, ![B]⟩ .f32)
    (p : Fin N) (q : Fin B) : EReal :=
  (pre a x wl wr b p q - rowTop a x wl wr b p)
    - Ideal.log (∑ k : Fin B, Ideal.exp (pre a x wl wr b p k - rowTop a x wl wr b p))

/-- The last layer as one function of the result index. -/
def final (a x : FVec Ideal ⟨2, ![N, K]⟩ .f32) (wl wr : FVec Ideal ⟨2, ![K, B]⟩ .f32) (b : FVec Ideal ⟨1, ![B]⟩ .f32) :
    FVec Ideal ⟨2, ![N, B]⟩ .f32 := fun i =>
  lsm a x wl wr b ⟨(i 0).val, idx2_lt0 i⟩ ⟨(i 1).val, idx2_lt1 i⟩

theorem hidden_ix2 (a x : FVec Ideal ⟨2, ![N, K]⟩ .f32) (wl wr : FVec Ideal ⟨2, ![K, B]⟩ .f32) (b : FVec Ideal ⟨1, ![B]⟩ .f32)
    (p : Fin N) (q : Fin B) :
    hidden a x wl wr b (ix2 p q) = max (pre a x wl wr b p q) (Ideal.ofBits .f32 0x00000000#32) := rfl

theorem final_ix2 (a x : FVec Ideal ⟨2, ![N, K]⟩ .f32) (wl wr : FVec Ideal ⟨2, ![K, B]⟩ .f32) (b : FVec Ideal ⟨1, ![B]⟩ .f32)
    (p : Fin N) (q : Fin B) : final a x wl wr b (ix2 p q) = lsm a x wl wr b p q := rfl

/-- A one-row matrix read as a vector. -/
def rowOf (r : FVec Ideal ⟨2, ![1, B]⟩ .f32) : FVec Ideal ⟨1, ![B]⟩ .f32 := fun i =>
  r (ix2 (0 : Fin 1) (⟨(i 0).val, (i 0).isLt⟩ : Fin B))

theorem rowOf_ix1 (r : FVec Ideal ⟨2, ![1, B]⟩ .f32) (q : Fin B) : rowOf r (ix1 q) = r (ix2 (0 : Fin 1) q) := rfl

/-- A vector cast to a one-row matrix and read back as a vector is the vector. -/
theorem rowOf_shapeCast (v : FVec Ideal ⟨1, ![B]⟩ .f32) (h : (⟨1, ![B]⟩ : Shape).ShapeCasts ⟨2, ![1, B]⟩) :
    rowOf (shapeCast ⟨2, ![1, B]⟩ v h) = v := by
  funext i
  obtain ⟨q, rfl⟩ : ∃ q : Fin B, i = ix1 q := ⟨i 0, eq_ix1 i⟩
  exact shapeCast_a_1a_apply v h 0 q

/-! ## A tile of rows, as a kernel body computes it -/

/-- Two matrix products of row tiles (after any change of float format) into zero accumulators, added, plus a bias row
    repeated along the rows, at (p, q): the layer's pre-activation of the tiles. -/
theorem tile_pre (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    {φ : FTy} (a x : FVec Ideal ⟨2, ![N, K]⟩ φ) (wl wr : FVec Ideal ⟨2, ![K, B]⟩ φ) (r : FVec Ideal ⟨2, ![1, B]⟩ .f32)
    (hb : (⟨2, ![1, B]⟩ : Shape).Broadcasts ⟨2, ![N, B]⟩) (p : Fin N) (q : Fin B) :
    addf (addf (matmul D none a wl (constant ⟨2, ![N, B]⟩ .f32 0x00000000#32))
        (matmul D none x wr (constant ⟨2, ![N, B]⟩ .f32 0x00000000#32))) (broadcastTo ⟨2, ![N, B]⟩ r hb) (ix2 p q)
      = (∑ k : Fin K, a (ix2 p k) * wl (ix2 k q)) + (∑ k : Fin K, x (ix2 p k) * wr (ix2 k q)) + r (ix2 (0 : Fin 1) q) := by
  show (matmul D none a wl (constant ⟨2, ![N, B]⟩ .f32 0x00000000#32) (ix2 p q)
      + matmul D none x wr (constant ⟨2, ![N, B]⟩ .f32 0x00000000#32) (ix2 p q)) + broadcastTo ⟨2, ![N, B]⟩ r hb (ix2 p q) = _
  rw [Cert.Lib.matmul_plain_apply D wf hD a wl p q, Cert.Lib.matmul_plain_apply D wf hD x wr p q,
    broadcastTo_1b_ab_apply r hb p q]

/-- The last layer's tile: from the tile's pre-activation z, the row maximum kept as a column and repeated, the
    difference, its exponential summed along the row, the logarithm of that column repeated, and the second difference,
    at (p, q). -/
theorem tile_lsm (z : FVec Ideal ⟨2, ![N, B]⟩ .f32)
    (hred : (⟨2, ![N, B]⟩ : Shape).Reduces [1] ⟨1, ![N]⟩) (hφ : FKind.Formats FTy.f32)
    (hmax : (0xFF800000#32 : BitVec FTy.f32.bits) = FKind.maximumf.neutral .f32 hφ)
    (hadd : (0x00000000#32 : BitVec FTy.f32.bits) = FKind.add.neutral .f32 hφ)
    (hc : (⟨1, ![N]⟩ : Shape).ShapeCasts ⟨2, ![N, 1]⟩) (hb : (⟨2, ![N, 1]⟩ : Shape).Broadcasts ⟨2, ![N, B]⟩)
    (p : Fin N) (q : Fin B) :
    subf (subf z (broadcastTo ⟨2, ![N, B]⟩ (shapeCast ⟨2, ![N, 1]⟩ (multiReduction .maximumf [1] ⟨1, ![N]⟩ z 0xFF800000#32 hred hφ hmax) hc) hb))
        (broadcastTo ⟨2, ![N, B]⟩ (log (shapeCast ⟨2, ![N, 1]⟩ (multiReduction .add [1] ⟨1, ![N]⟩
          (exp (subf z (broadcastTo ⟨2, ![N, B]⟩ (shapeCast ⟨2, ![N, 1]⟩ (multiReduction .maximumf [1] ⟨1, ![N]⟩ z 0xFF800000#32 hred hφ hmax) hc) hb)))
          0x00000000#32 hred hφ hadd) hc)) hb) (ix2 p q)
      = (z (ix2 p q) - (Finset.univ : Finset (Fin B)).fold max (Ideal.ofBits .f32 0xFF800000#32) (fun k => z (ix2 p k)))
        - Ideal.log (∑ k : Fin B, Ideal.exp (z (ix2 p k)
            - (Finset.univ : Finset (Fin B)).fold max (Ideal.ofBits .f32 0xFF800000#32) (fun k => z (ix2 p k)))) := by
  have hm : ∀ c : Fin B, broadcastTo ⟨2, ![N, B]⟩ (shapeCast ⟨2, ![N, 1]⟩ (multiReduction .maximumf [1] ⟨1, ![N]⟩ z 0xFF800000#32 hred hφ hmax) hc) hb (ix2 p c)
      = (Finset.univ : Finset (Fin B)).fold max (Ideal.ofBits .f32 0xFF800000#32) (fun k => z (ix2 p k)) :=
    fun c => Cert.Lib.rowMax_keepdims_apply z 0xFF800000#32 hred hφ hmax hc hb p c
  show (z (ix2 p q) - broadcastTo ⟨2, ![N, B]⟩ _ hb (ix2 p q)) - broadcastTo ⟨2, ![N, B]⟩ (log _) hb (ix2 p q) = _
  rw [hm q, Cert.Lib.broadcastTo_a1_ab_apply _ hb p q]
  show _ - Ideal.log (shapeCast ⟨2, ![N, 1]⟩ _ hc (ix2 p (0 : Fin 1))) = _
  rw [Cert.Lib.shapeCast_a_a1_apply _ hc p 0, Cert.Lib.rowSum_apply _ 0x00000000#32 hred hφ hadd p]
  refine congrArg (fun s => _ - Ideal.log s) (Finset.sum_congr rfl fun k _ => ?_)
  show Ideal.exp (z (ix2 p k) - broadcastTo ⟨2, ![N, B]⟩ _ hb (ix2 p k)) = _
  rw [hm k]

/-! ## The same on whole arrays, as the host computes it -/

/-- The host's two products, their sum and the bias vector repeated along the rows, at (p, q). -/
theorem host_pre (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    (a x : FVec Ideal ⟨2, ![N, K]⟩ .f32) (wl wr : FVec Ideal ⟨2, ![K, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1]) (p : Fin N) (q : Fin B) :
    addf (addf (Host.dotGeneral D none a wl) (Host.dotGeneral D none x wr))
        (broadcastInDim ⟨2, ![N, B]⟩ ![0, 1] h2 (broadcastInDim ⟨2, ![1, B]⟩ ![1] h1 b)) (ix2 p q)
      = pre a x wl wr b p q := by
  show (Host.dotGeneral D none a wl (ix2 p q) + Host.dotGeneral D none x wr (ix2 p q))
      + broadcastInDim ⟨2, ![N, B]⟩ ![0, 1] h2 (broadcastInDim ⟨2, ![1, B]⟩ ![1] h1 b) (ix2 p q) = _
  rw [Cert.Lib.dotGeneral_plain_apply D wf hD a wl p q, Cert.Lib.dotGeneral_plain_apply D wf hD x wr p q,
    Cert.Lib.bcast_vec_rows_apply b h1 h2 p q]
  rfl

/-- The maximum of a bound with a running maximum that starts from that bound is the running maximum. -/
theorem max_fold_start {ι : Type} (s : Finset ι) (b : EReal) (f : ι → EReal) :
    max b (s.fold max b f) = s.fold max b f :=
  max_eq_right ((Finset.le_fold_max b).mpr (Or.inl le_rfl))

/-! ## The network -/

/-- Three layers over features of one width — two hidden, the last a log-softmax — each fed the aggregation `agg`
    of the features it is given beside the features themselves. -/
def net {M D O : ℕ} (agg : FVec Ideal ⟨2, ![M, D]⟩ .f32 → FVec Ideal ⟨2, ![M, D]⟩ .f32)
    (x : FVec Ideal ⟨2, ![M, D]⟩ .f32) (w1l w1r : FVec Ideal ⟨2, ![D, D]⟩ .f32) (b1 : FVec Ideal ⟨1, ![D]⟩ .f32)
    (wml wmr : FVec Ideal ⟨2, ![D, D]⟩ .f32) (bm : FVec Ideal ⟨1, ![D]⟩ .f32)
    (w2l w2r : FVec Ideal ⟨2, ![D, O]⟩ .f32) (b2 : FVec Ideal ⟨1, ![O]⟩ .f32) : FVec Ideal ⟨2, ![M, O]⟩ .f32 :=
  final (agg (hidden (agg (hidden (agg x) x w1l w1r b1)) (hidden (agg x) x w1l w1r b1) wml wmr bm))
    (hidden (agg (hidden (agg x) x w1l w1r b1)) (hidden (agg x) x w1l w1r b1) wml wmr bm) w2l w2r b2

end Cert.Sage

end
-- ==== Proof.KernelBody.lean ====
/-
  What each kernel body stores, entry by entry, at the extended reals.

  Every body loads a tile of 2000 rows of the aggregated features and of the node features, the two weight matrices
  and the bias as a one-row matrix, forms the two products into zero accumulators (the change of float format on the
  way in is the identity here), adds them and the bias row repeated along the rows, and applies the activation: the
  maximum with zero in the two hidden layers, the row-wise log-softmax in the last.  Read at (p, q) the stored
  value is the layer's function of the loaded tiles (LibDenseLayers.lean), the bias row read as a vector.
-/
import proofs.«175840_j87720412053738_2_alg».proof.Proof.Gen.KernelIdeal.Skeleton
import proofs.«175840_j87720412053738_2_alg».proof.Proof.LibDenseLayers

noncomputable section

open scoped BigOperators

namespace Cert.Sage

open Idealize.ShloMosaic Idealize.ShloMosaic.ValueIdx Cert.KernelIdeal Cert.KernelIdeal.Gen

/-- The first hidden layer's stored tile at (p, q). -/
theorem body0_apply (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q) = max (pre x0 x1 x2 x3 (rowOf x4) p q) (Ideal.ofBits .f32 0x00000000#32) := by
  unfold k0_pay1
  simp only [shapeCast_self]
  exact congrArg (fun z => max z (Ideal.ofBits .f32 0x00000000#32))
    (tile_pre dot_S2000x128_S128x128_S2000x128_1_0_0_1_n_n Facts₀.dot_S2000x128_S128x128_S2000x128_1_0_0_1_n_n_wf rfl
      (truncf .bf16 x0 bitsLt_bf16_f32) (truncf .bf16 x1 bitsLt_bf16_f32) (truncf .bf16 x2 bitsLt_bf16_f32) (truncf .bf16 x3 bitsLt_bf16_f32)
      x4 Facts₀.broadcasts_S1x128_S2000x128 p q)

/-- The second hidden layer's stored tile at (p, q). -/
theorem body1_apply (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q) = max (pre x0 x1 x2 x3 (rowOf x4) p q) (Ideal.ofBits .f32 0x00000000#32) := by
  unfold k1_pay1
  simp only [shapeCast_self]
  exact congrArg (fun z => max z (Ideal.ofBits .f32 0x00000000#32))
    (tile_pre dot_S2000x128_S128x128_S2000x128_1_0_0_1_n_n Facts₀.dot_S2000x128_S128x128_S2000x128_1_0_0_1_n_n_wf rfl
      (truncf .bf16 x0 bitsLt_bf16_f32) (truncf .bf16 x1 bitsLt_bf16_f32) (truncf .bf16 x2 bitsLt_bf16_f32) (truncf .bf16 x3 bitsLt_bf16_f32)
      x4 Facts₀.broadcasts_S1x128_S2000x128 p q)

/-- The last layer's stored tile at (p, q). -/
theorem body2_apply (x0 x1 : Vec Ideal S2000x128 .f32) (x2 x3 : Vec Ideal S128x64 .f32) (x4 : Vec Ideal S1x64 .f32)
    (p : Fin 2000) (q : Fin 64) :
    k2_pay1 (F := Ideal) x0 x1 x2 x3 x4 (ix2 p q) = lsm x0 x1 x2 x3 (rowOf x4) p q := by
  have hz := fun k : Fin 64 =>
    tile_pre dot_S2000x128_S128x64_S2000x64_1_0_0_1_n_n Facts₀.dot_S2000x128_S128x64_S2000x64_1_0_0_1_n_n_wf rfl
      (truncf .bf16 x0 bitsLt_bf16_f32) (truncf .bf16 x1 bitsLt_bf16_f32) (truncf .bf16 x2 bitsLt_bf16_f32) (truncf .bf16 x3 bitsLt_bf16_f32)
      x4 Facts₀.broadcasts_S1x64_S2000x64 p k
  unfold k2_pay1
  simp only [shapeCast_self]
  refine (tile_lsm _ Facts₀.reduces_S2000x64_S2000 (.inl rfl) rfl rfl Facts₀.shapeCasts_S2000_S2000x1
    Facts₀.broadcasts_S2000x1_S2000x64 p q).trans ?_
  simp only [hz]
  rfl

end Cert.Sage

end
-- ==== Proof.KernelTiles.lean ====
/-
  From tiles to arrays: what each of the three tiled regions leaves in its result array.

  Each region walks 25 tiles of 2000 rows.  At tile `t` it is handed rows 2000·t … 2000·t + 1999 of the aggregated
  features and of the features, the whole weight matrices and the bias row, and writes back rows 2000·t … of the
  result; by KernelBody.lean the written tile is the layer's function of what it was handed, and a layer's row p depends
  only on row p of the two feature arrays, so tile `t` of the result is tile `t` of the layer's function of the whole
  arrays.  The tiles cover the array, so the array ends at that function — for any contents `V` the region is entered
  with.
-/
import proofs.«175840_j87720412053738_2_alg».proof.Proof.KernelIdealFrameP
import proofs.«175840_j87720412053738_2_alg».proof.Proof.KernelBody
import Idealize.ShloMosaic.Lib.Pipeline.Value

set_option maxRecDepth 16384

noncomputable section

open scoped BigOperators

namespace Cert.Sage.K

open Cert.KernelIdeal Cert.KernelIdeal.Gen Cert.KernelIdeal.GenP Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the array it leaves -/

/-- The printed index maps of region 0, decided over its grid: the row-tiled windows (the aggregated features, the
    features, the result) sit at block row `t`, the weights and the bias at block zero. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of tile `t` is row `2000·t + p` of the array. -/
def row0 (t : Fin cfg0.N) (p : Fin 2000) : Fin 50000 :=
  ⟨t.val * 2000 + p.val, by have ht : t.val < 25 := lt_of_lt_of_eq t.isLt N_0; have hp := p.isLt; omega⟩

theorem blk0_0 (c : Dev nD) (t : Fin cfg0.N) (p : Fin 2000) (k : Fin 128) :
    iblk0 V c 0 t (ix2 p k) = V c main_v22 (ix2 (row0 t p) k) := by
  show V c main_v22 (((cfg0.win 0).blk t).view.emb (ix2 p k)) = _
  refine congrArg (V c main_v22) (funext fun a => Fin.ext ?_)
  obtain ⟨e0, e1, -⟩ := idx0 t
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem blk0_1 (c : Dev nD) (t : Fin cfg0.N) (p : Fin 2000) (k : Fin 128) :
    iblk0 V c 1 t (ix2 p k) = V c main_arg0 (ix2 (row0 t p) k) := by
  show V c main_arg0 (((cfg0.win 1).blk t).view.emb (ix2 p k)) = _
  refine congrArg (V c main_arg0) (funext fun a => Fin.ext ?_)
  obtain ⟨-, -, e0, e1, -⟩ := idx0 t
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

theorem blk0_2 (c : Dev nD) (t : Fin cfg0.N) (k : Fin 128) (q : Fin 128) :
    iblk0 V c 2 t (ix2 k q) = V c main_arg2 (ix2 k q) := by
  show V c main_arg2 (((cfg0.win 2).blk t).view.emb (ix2 k q)) = _
  refine congrArg (V c main_arg2) (funext fun a => Fin.ext ?_)
  obtain ⟨-, -, -, -, e0, e1, -⟩ := idx0 t
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem blk0_3 (c : Dev nD) (t : Fin cfg0.N) (k : Fin 128) (q : Fin 128) :
    iblk0 V c 3 t (ix2 k q) = V c main_arg3 (ix2 k q) := by
  show V c main_arg3 (((cfg0.win 3).blk t).view.emb (ix2 k q)) = _
  refine congrArg (V c main_arg3) (funext fun a => Fin.ext ?_)
  obtain ⟨-, -, -, -, -, -, e0, e1, -⟩ := idx0 t
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem blk0_4 (c : Dev nD) (t : Fin cfg0.N) (u : Fin 1) (q : Fin 128) :
    iblk0 V c 4 t (ix2 u q) = V c main_v23 (ix2 u q) := by
  show V c main_v23 (((cfg0.win 4).blk t).view.emb (ix2 u q)) = _
  refine congrArg (V c main_v23) (funext fun a => Fin.ext ?_)
  obtain ⟨-, -, -, -, -, -, -, -, e0, e1, -⟩ := idx0 t
  match a with
  | ⟨0, _⟩ => show win0_4.index t (0 : Fin 2) * 1 + 1 * u.val = u.val; rw [e0]; omega
  | ⟨1, _⟩ => show win0_4.index t (1 : Fin 2) * 128 + 1 * q.val = q.val; rw [e1]; omega

theorem emb0 (t : Fin cfg0.N) (p : Fin 2000) (q : Fin 128) :
    ((cfg0.win 5).blk t).view.emb (ix2 p q) = ix2 (row0 t p) q := by
  refine funext fun a => Fin.ext ?_
  obtain ⟨-, -, -, -, -, -, -, -, -, -, e0, e1⟩ := idx0 t
  match a with
  | ⟨0, _⟩ => show win0_5.index t (0 : Fin 2) * 2000 + 1 * p.val = t.val * 2000 + p.val; rw [e0]; omega
  | ⟨1, _⟩ => show win0_5.index t (1 : Fin 2) * 128 + 1 * q.val = q.val; rw [e1]; omega

/-- What point `t` of region 0 writes back is tile `t` of the layer's function of the arrays the region finds. -/
theorem flushed0 (c : Dev nD) (t : Fin cfg0.N) :
    (dat0 V c).flushed 5 t = ((cfg0.win 5).blk t).view.read (Elt Ideal)
      (hidden (V c main_v22) (V c main_arg0) (V c main_arg2) (V c main_arg3) (rowOf (V c main_v23))) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (body0_apply (iblk0 V c 0 t) (iblk0 V c 1 t) (iblk0 V c 2 t) (iblk0 V c 3 t) (iblk0 V c 4 t) p q).trans ?_
  show _ = hidden (V c main_v22) (V c main_arg0) (V c main_arg2) (V c main_arg3) (rowOf (V c main_v23)) (((cfg0.win 5).blk t).view.emb (ix2 p q))
  rw [emb0 t p q, hidden_ix2]
  unfold pre
  simp only [blk0_0 V c t, blk0_1 V c t, blk0_2 V c t, blk0_3 V c t, rowOf_ix1, blk0_4 V c t]

theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v24).slice (win0_5.rect t)).set ↔ _
  rw [View.set_slice_whole, Rect.mem_set_unit]
  exact Iff.rfl

/-- The 25 tiles cover the array: row `r` is in tile `r / 2000`. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 25 := N_0
  have ht : (i 0).val / 2000 < cfg0.N := by show (i 0).val / 2000 < grid0.N; rw [hN]; omega
  obtain ⟨-, -, -, -, -, -, -, -, -, -, e0, e1⟩ := idx0 ⟨(i 0).val / 2000, ht⟩
  refine ⟨⟨(i 0).val / 2000, ht⟩, flush0_5 _, ?_⟩
  rw [mem_blk0]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [e1]; omega

/-- Region 0 leaves its result array at the layer's function of the arrays it finds at entry. -/
theorem final0 (c : Dev nD) :
    (dat0 V c).arrAt 5 cfg0.N = hidden (V c main_v22) (V c main_arg0) (V c main_arg2) (V c main_arg3) (rowOf (V c main_v23)) :=
  (dat0 V c).arrAt_eq_of_cover 5 _ (fun t _ => flushed0 V c t) (cover0)

/-! ## Region 1: the array it leaves -/

/-- The printed index maps of region 1, decided over its grid: the row-tiled windows (the aggregated features, the
    features, the result) sit at block row `t`, the weights and the bias at block zero. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of tile `t` is row `2000·t + p` of the array. -/
def row1 (t : Fin cfg1.N) (p : Fin 2000) : Fin 50000 :=
  ⟨t.val * 2000 + p.val, by have ht : t.val < 25 := lt_of_lt_of_eq t.isLt N_1; have hp := p.isLt; omega⟩

theorem blk1_0 (c : Dev nD) (t : Fin cfg1.N) (p : Fin 2000) (k : Fin 128) :
    iblk1 V c 0 t (ix2 p k) = V c main_v36 (ix2 (row1 t p) k) := by
  show V c main_v36 (((cfg1.win 0).blk t).view.emb (ix2 p k)) = _
  refine congrArg (V c main_v36) (funext fun a => Fin.ext ?_)
  obtain ⟨e0, e1, -⟩ := idx1 t
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

theorem blk1_1 (c : Dev nD) (t : Fin cfg1.N) (p : Fin 2000) (k : Fin 128) :
    iblk1 V c 1 t (ix2 p k) = V c main_v24 (ix2 (row1 t p) k) := by
  show V c main_v24 (((cfg1.win 1).blk t).view.emb (ix2 p k)) = _
  refine congrArg (V c main_v24) (funext fun a => Fin.ext ?_)
  obtain ⟨-, -, e0, e1, -⟩ := idx1 t
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega

theorem blk1_2 (c : Dev nD) (t : Fin cfg1.N) (k : Fin 128) (q : Fin 128) :
    iblk1 V c 2 t (ix2 k q) = V c main_arg5 (ix2 k q) := by
  show V c main_arg5 (((cfg1.win 2).blk t).view.emb (ix2 k q)) = _
  refine congrArg (V c main_arg5) (funext fun a => Fin.ext ?_)
  obtain ⟨-, -, -, -, e0, e1, -⟩ := idx1 t
  match a with
  | ⟨0, _⟩ => show win1_2.index t (0 : Fin 2) * 128 + 1 * k.val = k.val; rw [e0]; omega
  | ⟨1, _⟩ => show win1_2.index t (1 : Fin 2) * 128 + 1 * q.val = q.val; rw [e1]; omega

theorem blk1_3 (c : Dev nD) (t : Fin cfg1.N) (k : Fin 128) (q : Fin 128) :
    iblk1 V c 3 t (ix2 k q) = V c main_arg6 (ix2 k q) := by
  show V c main_arg6 (((cfg1.win 3).blk t).view.emb (ix2 k q)) = _
  refine congrArg (V c main_arg6) (funext fun a => Fin.ext ?_)
  obtain ⟨-, -, -, -, -, -, e0, e1, -⟩ := idx1 t
  match a with
  | ⟨0, _⟩ => show win1_3.index t (0 : Fin 2) * 128 + 1 * k.val = k.val; rw [e0]; omega
  | ⟨1, _⟩ => show win1_3.index t (1 : Fin 2) * 128 + 1 * q.val = q.val; rw [e1]; omega

theorem blk1_4 (c : Dev nD) (t : Fin cfg1.N) (u : Fin 1) (q : Fin 128) :
    iblk1 V c 4 t (ix2 u q) = V c main_v37 (ix2 u q) := by
  show V c main_v37 (((cfg1.win 4).blk t).view.emb (ix2 u q)) = _
  refine congrArg (V c main_v37) (funext fun a => Fin.ext ?_)
  obtain ⟨-, -, -, -, -, -, -, -, e0, e1, -⟩ := idx1 t
  match a with
  | ⟨0, _⟩ => show win1_4.index t (0 : Fin 2) * 1 + 1 * u.val = u.val; rw [e0]; omega
  | ⟨1, _⟩ => show win1_4.index t (1 : Fin 2) * 128 + 1 * q.val = q.val; rw [e1]; omega

theorem emb1 (t : Fin cfg1.N) (p : Fin 2000) (q : Fin 128) :
    ((cfg1.win 5).blk t).view.emb (ix2 p q) = ix2 (row1 t p) q := by
  refine funext fun a => Fin.ext ?_
  obtain ⟨-, -, -, -, -, -, -, -, -, -, e0, e1⟩ := idx1 t
  match a with
  | ⟨0, _⟩ => show win1_5.index t (0 : Fin 2) * 2000 + 1 * p.val = t.val * 2000 + p.val; rw [e0]; omega
  | ⟨1, _⟩ => show win1_5.index t (1 : Fin 2) * 128 + 1 * q.val = q.val; rw [e1]; omega

/-- What point `t` of region 1 writes back is tile `t` of the layer's function of the arrays the region finds. -/
theorem flushed1 (c : Dev nD) (t : Fin cfg1.N) :
    (dat1 V c).flushed 5 t = ((cfg1.win 5).blk t).view.read (Elt Ideal)
      (hidden (V c main_v36) (V c main_v24) (V c main_arg5) (V c main_arg6) (rowOf (V c main_v37))) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (body1_apply (iblk1 V c 0 t) (iblk1 V c 1 t) (iblk1 V c 2 t) (iblk1 V c 3 t) (iblk1 V c 4 t) p q).trans ?_
  show _ = hidden (V c main_v36) (V c main_v24) (V c main_arg5) (V c main_arg6) (rowOf (V c main_v37)) (((cfg1.win 5).blk t).view.emb (ix2 p q))
  rw [emb1 t p q, hidden_ix2]
  unfold pre
  simp only [blk1_0 V c t, blk1_1 V c t, blk1_2 V c t, blk1_3 V c t, rowOf_ix1, blk1_4 V c t]

theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v38).slice (win1_5.rect t)).set ↔ _
  rw [View.set_slice_whole, Rect.mem_set_unit]
  exact Iff.rfl

/-- The 25 tiles cover the array: row `r` is in tile `r / 2000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 25 := N_1
  have ht : (i 0).val / 2000 < cfg1.N := by show (i 0).val / 2000 < grid1.N; rw [hN]; omega
  obtain ⟨-, -, -, -, -, -, -, -, -, -, e0, e1⟩ := idx1 ⟨(i 0).val / 2000, ht⟩
  refine ⟨⟨(i 0).val / 2000, ht⟩, flush1_5 _, ?_⟩
  rw [mem_blk1]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [e1]; omega

/-- Region 1 leaves its result array at the layer's function of the arrays it finds at entry. -/
theorem final1 (c : Dev nD) :
    (dat1 V c).arrAt 5 cfg1.N = hidden (V c main_v36) (V c main_v24) (V c main_arg5) (V c main_arg6) (rowOf (V c main_v37)) :=
  (dat1 V c).arrAt_eq_of_cover 5 _ (fun t _ => flushed1 V c t) (cover1)

/-! ## Region 2: the array it leaves -/

/-- The printed index maps of region 2, decided over its grid: the row-tiled windows (the aggregated features, the
    features, the result) sit at block row `t`, the weights and the bias at block zero. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of tile `t` is row `2000·t + p` of the array. -/
def row2 (t : Fin cfg2.N) (p : Fin 2000) : Fin 50000 :=
  ⟨t.val * 2000 + p.val, by have ht : t.val < 25 := lt_of_lt_of_eq t.isLt N_2; have hp := p.isLt; omega⟩

theorem blk2_0 (c : Dev nD) (t : Fin cfg2.N) (p : Fin 2000) (k : Fin 128) :
    iblk2 V c 0 t (ix2 p k) = V c main_v50 (ix2 (row2 t p) k) := by
  show V c main_v50 (((cfg2.win 0).blk t).view.emb (ix2 p k)) = _
  refine congrArg (V c main_v50) (funext fun a => Fin.ext ?_)
  obtain ⟨e0, e1, -⟩ := idx2 t
  match a with
  | ⟨0, _⟩ => show win2_0.index t (0 : Fin 2) * 2000 + 1 * p.val = t.val * 2000 + p.val; rw [e0]; omega
  | ⟨1, _⟩ => show win2_0.index t (1 : Fin 2) * 128 + 1 * k.val = k.val; rw [e1]; omega

theorem blk2_1 (c : Dev nD) (t : Fin cfg2.N) (p : Fin 2000) (k : Fin 128) :
    iblk2 V c 1 t (ix2 p k) = V c main_v38 (ix2 (row2 t p) k) := by
  show V c main_v38 (((cfg2.win 1).blk t).view.emb (ix2 p k)) = _
  refine congrArg (V c main_v38) (funext fun a => Fin.ext ?_)
  obtain ⟨-, -, e0, e1, -⟩ := idx2 t
  match a with
  | ⟨0, _⟩ => show win2_1.index t (0 : Fin 2) * 2000 + 1 * p.val = t.val * 2000 + p.val; rw [e0]; omega
  | ⟨1, _⟩ => show win2_1.index t (1 : Fin 2) * 128 + 1 * k.val = k.val; rw [e1]; omega

theorem blk2_2 (c : Dev nD) (t : Fin cfg2.N) (k : Fin 128) (q : Fin 64) :
    iblk2 V c 2 t (ix2 k q) = V c main_arg8 (ix2 k q) := by
  show V c main_arg8 (((cfg2.win 2).blk t).view.emb (ix2 k q)) = _
  refine congrArg (V c main_arg8) (funext fun a => Fin.ext ?_)
  obtain ⟨-, -, -, -, e0, e1, -⟩ := idx2 t
  match a with
  | ⟨0, _⟩ => show win2_2.index t (0 : Fin 2) * 128 + 1 * k.val = k.val; rw [e0]; omega
  | ⟨1, _⟩ => show win2_2.index t (1 : Fin 2) * 64 + 1 * q.val = q.val; rw [e1]; omega

theorem blk2_3 (c : Dev nD) (t : Fin cfg2.N) (k : Fin 128) (q : Fin 64) :
    iblk2 V c 3 t (ix2 k q) = V c main_arg9 (ix2 k q) := by
  show V c main_arg9 (((cfg2.win 3).blk t).view.emb (ix2 k q)) = _
  refine congrArg (V c main_arg9) (funext fun a => Fin.ext ?_)
  obtain ⟨-, -, -, -, -, -, e0, e1, -⟩ := idx2 t
  match a with
  | ⟨0, _⟩ => show win2_3.index t (0 : Fin 2) * 128 + 1 * k.val = k.val; rw [e0]; omega
  | ⟨1, _⟩ => show win2_3.index t (1 : Fin 2) * 64 + 1 * q.val = q.val; rw [e1]; omega

theorem blk2_4 (c : Dev nD) (t : Fin cfg2.N) (u : Fin 1) (q : Fin 64) :
    iblk2 V c 4 t (ix2 u q) = V c main_v51 (ix2 u q) := by
  show V c main_v51 (((cfg2.win 4).blk t).view.emb (ix2 u q)) = _
  refine congrArg (V c main_v51) (funext fun a => Fin.ext ?_)
  obtain ⟨-, -, -, -, -, -, -, -, e0, e1, -⟩ := idx2 t
  match a with
  | ⟨0, _⟩ => show win2_4.index t (0 : Fin 2) * 1 + 1 * u.val = u.val; rw [e0]; omega
  | ⟨1, _⟩ => show win2_4.index t (1 : Fin 2) * 64 + 1 * q.val = q.val; rw [e1]; omega

theorem emb2 (t : Fin cfg2.N) (p : Fin 2000) (q : Fin 64) :
    ((cfg2.win 5).blk t).view.emb (ix2 p q) = ix2 (row2 t p) q := by
  refine funext fun a => Fin.ext ?_
  obtain ⟨-, -, -, -, -, -, -, -, -, -, e0, e1⟩ := idx2 t
  match a with
  | ⟨0, _⟩ => show win2_5.index t (0 : Fin 2) * 2000 + 1 * p.val = t.val * 2000 + p.val; rw [e0]; omega
  | ⟨1, _⟩ => show win2_5.index t (1 : Fin 2) * 64 + 1 * q.val = q.val; rw [e1]; omega

/-- What point `t` of region 2 writes back is tile `t` of the layer's function of the arrays the region finds. -/
theorem flushed2 (c : Dev nD) (t : Fin cfg2.N) :
    (dat2 V c).flushed 5 t = ((cfg2.win 5).blk t).view.read (Elt Ideal)
      (final (V c main_v50) (V c main_v38) (V c main_arg8) (V c main_arg9) (rowOf (V c main_v51))) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x64) hz, View.ld_unit_zero (S := S1x64) hz]
  funext j
  obtain ⟨p, q, rfl⟩ : ∃ (p : Fin 2000) (q : Fin 64), j = ix2 p q := ⟨j 0, j 1, eq_ix2 j⟩
  refine (body2_apply (iblk2 V c 0 t) (iblk2 V c 1 t) (iblk2 V c 2 t) (iblk2 V c 3 t) (iblk2 V c 4 t) p q).trans ?_
  show _ = final (V c main_v50) (V c main_v38) (V c main_arg8) (V c main_arg9) (rowOf (V c main_v51)) (((cfg2.win 5).blk t).view.emb (ix2 p q))
  rw [emb2 t p q, final_ix2]
  unfold lsm rowTop pre
  simp only [blk2_0 V c t, blk2_1 V c t, blk2_2 V c t, blk2_3 V c t, rowOf_ix1, blk2_4 V c t]

theorem mem_blk2 (t : Fin cfg2.N) (i : S50000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v52).slice (win2_5.rect t)).set ↔ _
  rw [View.set_slice_whole, Rect.mem_set_unit]
  exact Iff.rfl

/-- The 25 tiles cover the array: row `r` is in tile `r / 2000`. -/
theorem cover2 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : grid2.N = 25 := N_2
  have ht : (i 0).val / 2000 < cfg2.N := by show (i 0).val / 2000 < grid2.N; rw [hN]; omega
  obtain ⟨-, -, -, -, -, -, -, -, -, -, e0, e1⟩ := idx2 ⟨(i 0).val / 2000, ht⟩
  refine ⟨⟨(i 0).val / 2000, ht⟩, flush2_5 _, ?_⟩
  rw [mem_blk2]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 64 ≤ (i 1).val ∧ (i 1).val < win2_5.index ⟨(i 0).val / 2000, ht⟩ (1 : Fin 2) * 64 + 64
    rw [e1]; omega

/-- Region 2 leaves its result array at the layer's function of the arrays it finds at entry. -/
theorem final2 (c : Dev nD) :
    (dat2 V c).arrAt 5 cfg2.N = final (V c main_v50) (V c main_v38) (V c main_arg8) (V c main_arg9) (rowOf (V c main_v51)) :=
  (dat2 V c).arrAt_eq_of_cover 5 _ (fun t _ => flushed2 V c t) (cover2)

end Cert.Sage.K

end
-- ==== Proof.KernelHost.lean ====
/-
  The kernel program's host side as functions of whole arrays.

  Around its three tiled dense layers the kernel program computes, on the host, the same mean aggregation along the
  edges as the reference — gather the source rows (a negative word wrapped once), add them up at their destination
  rows, divide by the destination's degree (at least one) — except that it forms the degree column once and uses it
  three times.  Each piece is named here as the composition of host operations the program spells; the aggregation is
  never opened.
-/
import proofs.«175840_j87720412053738_2_alg».proof.Proof.Gen.KernelIdeal
import proofs.«175840_j87720412053738_2_alg».proof.Proof.LibDenseLayers

noncomputable section

namespace Cert.Sage.K

open Cert.KernelIdeal Cert.KernelIdeal.Gen
open Idealize.ShloMosaic Idealize.ShloMosaic.TcCoe Idealize.SL.Sem Idealize.ShloMosaic.ValueIdx

abbrev Feat := FVec Ideal S50000x128 .f32
abbrev Edges := IVec S2x800000 32
abbrev Words := IVec S800000 32
abbrev Col := FVec Ideal S50000x1 .f32

/-- The edges' source words: row 0 of the edge array. -/
def src (e : Edges) : Words :=
  shapeCast _ (extractStridedSlice S1x800000 ![0, 0] e slices_S2x800000_S1x800000_0_0) shapeCasts_S1x800000_S800000
/-- The edges' destination words: row 1 of the edge array. -/
def dst (e : Edges) : Words :=
  shapeCast _ (extractStridedSlice S1x800000 ![1, 0] e slices_S2x800000_S1x800000_1_0) shapeCasts_S1x800000_S800000

/-- Each node's in-degree, at least one, as a column: ones added up at the destination words. -/
def deg (d : Words) : Col :=
  broadcastInDim S50000x1 ![0] bcast_S50000_S50000x1_0
    (maximumf (F := Ideal) (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 d)
        (broadcastInDim S800000 ![] bcast_S_S800000 (constant (F := Ideal) S_ .f32 0x3F800000#32)))
      (broadcastInDim S50000 ![] bcast_S_S50000 (constant (F := Ideal) S_ .f32 0x3F800000#32)))

/-- The mean aggregation of features `h` along the edges (source words `s`, negative ones wrapped; destination words
    `d`; degree column `g`). -/
def agg (s d : Words) (g : Col) (h : Feat) : Feat :=
  Host.divf (F := Ideal) (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather gather_S50000x128_S800000x1_S800000x128_1_0_n_n_0_1_1128 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1 g)

end Cert.Sage.K

end
-- ==== Proof.KernelValue.lean ====
/-
  The kernel program's result as one function of its arguments.

  The contents at each boundary between @main's segments are read off the fold: the first stretch of host operations
  leaves the edges' source and destination words, the degree column, the aggregation of the input features and the
  first bias as a one-row matrix; the first region then leaves the first hidden layer of those (KernelTiles.lean); the
  second stretch aggregates that layer, reusing the words and the degree column, which nothing in between has written,
  and so on.  The result array ends at the three-layer network of LibDenseLayers.lean over the mean aggregation along the
  edges (KernelHost.lean), of the argument arrays.
-/
import proofs.«175840_j87720412053738_2_alg».proof.Proof.KernelRun
import proofs.«175840_j87720412053738_2_alg».proof.Proof.KernelTiles
import proofs.«175840_j87720412053738_2_alg».proof.Proof.KernelHost
import Idealize.ShloMosaic.Lib.StableHlo.Run

set_option maxRecDepth 16384

noncomputable section

namespace Cert.Sage.K

open Cert.KernelIdeal Cert.KernelIdeal.Gen Cert.KernelIdeal.GenP Cert.Sage
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- Closes `after ops W b = W b` for a buffer `b` that none of the stretch's operations writes. -/
macro "host_keeps" : tactic =>
  `(tactic| (refine StableHlo.after_of_forall_not_mem _ _ (List.forall_iff_forall_mem.mp ?_)
             simp only [hostOps0, hostOps1, hostOps2, List.Forall, StableHlo.nullary_writes, StableHlo.unary_writes,
               StableHlo.binary_writes, StableHlo.ternary_writes, StableHlo.reshape_writes, Finset.mem_singleton]
             repeat' apply And.intro
             all_goals exact StableHlo.devRef_ne_of_ne (by decide)))

/-- The edge array, the features and the mean aggregation along the edges, of the launch memory. -/
abbrev E : Edges := m ((c : Thread nD τ).loc main_arg1)
abbrev X : Feat := m ((c : Thread nD τ).loc main_arg0)
abbrev mean : Feat → Feat := agg (src (E m c)) (dst (E m c)) (deg (dst (E m c)))

/-! ## After the first stretch of host operations -/

theorem w1_v22 : W1 m ρ c (Proc.devRef .tc main_v22) = mean m c (X m c) := by
  show StableHlo.after hostOps0 (W0 m ρ c) (Proc.devRef .tc main_v22) = _
  after_results_simp
  rfl
theorem w1_v23 : W1 m ρ c (Proc.devRef .tc main_v23) = shapeCast S1x128 (m ((c : Thread nD τ).loc main_arg4)) shapeCasts_S128_S1x128 := by
  show StableHlo.after hostOps0 (W0 m ρ c) (Proc.devRef .tc main_v23) = _
  after_results_simp
  rfl
theorem w1_v1 : W1 m ρ c (Proc.devRef .tc main_v1) = src (E m c) := by
  show StableHlo.after hostOps0 (W0 m ρ c) (Proc.devRef .tc main_v1) = _
  after_results_simp
  rfl
theorem w1_v3 : W1 m ρ c (Proc.devRef .tc main_v3) = dst (E m c) := by
  show StableHlo.after hostOps0 (W0 m ρ c) (Proc.devRef .tc main_v3) = _
  after_results_simp
  rfl
theorem w1_v10 : W1 m ρ c (Proc.devRef .tc main_v10) = deg (dst (E m c)) := by
  show StableHlo.after hostOps0 (W0 m ρ c) (Proc.devRef .tc main_v10) = _
  after_results_simp
  rfl
/-- An argument array is as launched after the first stretch. -/
theorem w1_arg (b : Ref sig .tc) (hb : b ∈ [main_arg0, main_arg2, main_arg3, main_arg5, main_arg6, main_arg7, main_arg8, main_arg9, main_arg10]) :
    W1 m ρ c (Proc.devRef .tc b) = m ((c : Thread nD τ).loc b) := by
  show StableHlo.after hostOps0 (W0 m ρ c) (Proc.devRef .tc b) = W0 m ρ c (Proc.devRef .tc b)
  simp only [List.mem_cons, List.mem_nil_iff, or_false] at hb
  rcases hb with rfl | rfl | rfl | rfl | rfl | rfl | rfl | rfl | rfl <;> host_keeps

/-! ## The first region and the second stretch -/

/-- The first hidden layer. -/
abbrev H1 : Feat :=
  hidden (mean m c (X m c)) (X m c) (m ((c : Thread nD τ).loc main_arg2)) (m ((c : Thread nD τ).loc main_arg3)) (m ((c : Thread nD τ).loc main_arg4))

theorem w2_v24 : W2 m ρ c (Proc.devRef .tc main_v24) = H1 m c := by
  refine (W2_arr m ρ c 5).trans ((final0 (V1 m ρ) c).trans ?_)
  show hidden (W1 m ρ c (Proc.devRef .tc main_v22)) (W1 m ρ c (Proc.devRef .tc main_arg0)) (W1 m ρ c (Proc.devRef .tc main_arg2))
    (W1 m ρ c (Proc.devRef .tc main_arg3)) (rowOf (W1 m ρ c (Proc.devRef .tc main_v23))) = _
  rw [w1_v22, w1_v23, w1_arg m ρ c main_arg0 (by simp), w1_arg m ρ c main_arg2 (by simp), w1_arg m ρ c main_arg3 (by simp), rowOf_shapeCast]

/-- A buffer that is none of the first region's arrays is as the first stretch left it. -/
theorem w2_keep (b : Ref sig .tc) (hb : ∀ w, Pipeline.arrRef spec0 w ≠ b) :
    W2 m ρ c (Proc.devRef .tc b) = W1 m ρ c (Proc.devRef .tc b) := W2_of_ne m ρ c b hb

theorem w3_keep (b : Ref sig .tc) (hb : b ∈ [main_v24, main_v1, main_v3, main_v10, main_arg5, main_arg6, main_arg8, main_arg9, main_arg10]) :
    W3 m ρ c (Proc.devRef .tc b) = W2 m ρ c (Proc.devRef .tc b) := by
  show StableHlo.after hostOps1 (W2 m ρ c) (Proc.devRef .tc b) = W2 m ρ c (Proc.devRef .tc b)
  simp only [List.mem_cons, List.mem_nil_iff, or_false] at hb
  rcases hb with rfl | rfl | rfl | rfl | rfl | rfl | rfl | rfl | rfl <;> host_keeps

theorem w3_v36 : W3 m ρ c (Proc.devRef .tc main_v36) = mean m c (H1 m c) := by
  show StableHlo.after hostOps1 (W2 m ρ c) (Proc.devRef .tc main_v36) = _
  after_results_simp
  rw [w2_v24, w2_keep m ρ c main_v1 (by decide), w2_keep m ρ c main_v3 (by decide), w2_keep m ρ c main_v10 (by decide), w1_v1, w1_v3, w1_v10]
  rfl
theorem w3_v37 : W3 m ρ c (Proc.devRef .tc main_v37) = shapeCast S1x128 (m ((c : Thread nD τ).loc main_arg7)) shapeCasts_S128_S1x128 := by
  show StableHlo.after hostOps1 (W2 m ρ c) (Proc.devRef .tc main_v37) = _
  after_results_simp
  rw [w2_keep m ρ c main_arg7 (by decide), w1_arg m ρ c main_arg7 (by simp)]
  rfl

/-! ## The second region and the third stretch -/

/-- The second hidden layer. -/
abbrev H2 : Feat :=
  hidden (mean m c (H1 m c)) (H1 m c) (m ((c : Thread nD τ).loc main_arg5)) (m ((c : Thread nD τ).loc main_arg6)) (m ((c : Thread nD τ).loc main_arg7))

theorem w4_v38 : W4 m ρ c (Proc.devRef .tc main_v38) = H2 m c := by
  refine (W4_arr m ρ c 5).trans ((final1 (V3 m ρ) c).trans ?_)
  show hidden (W3 m ρ c (Proc.devRef .tc main_v36)) (W3 m ρ c (Proc.devRef .tc main_v24)) (W3 m ρ c (Proc.devRef .tc main_arg5))
    (W3 m ρ c (Proc.devRef .tc main_arg6)) (rowOf (W3 m ρ c (Proc.devRef .tc main_v37))) = _
  rw [w3_v36, w3_v37, w3_keep m ρ c main_v24 (by simp), w2_v24, w3_keep m ρ c main_arg5 (by simp), w3_keep m ρ c main_arg6 (by simp),
    w2_keep m ρ c main_arg5 (by decide), w2_keep m ρ c main_arg6 (by decide), w1_arg m ρ c main_arg5 (by simp), w1_arg m ρ c main_arg6 (by simp),
    rowOf_shapeCast]

/-- A buffer that is none of the second region's arrays is as the second stretch left it. -/
theorem w4_keep (b : Ref sig .tc) (hb : ∀ w, Pipeline.arrRef spec1 w ≠ b) :
    W4 m ρ c (Proc.devRef .tc b) = W3 m ρ c (Proc.devRef .tc b) := W4_of_ne m ρ c b hb

/-- What the first stretch left in a buffer neither later stretch nor the first two regions write is still there when
    the third stretch starts. -/
theorem w4_old (b : Ref sig .tc) (hb : b ∈ [main_v1, main_v3, main_v10, main_arg8, main_arg9, main_arg10]) :
    W4 m ρ c (Proc.devRef .tc b) = W1 m ρ c (Proc.devRef .tc b) := by
  simp only [List.mem_cons, List.mem_nil_iff, or_false] at hb
  rcases hb with rfl | rfl | rfl | rfl | rfl | rfl
  all_goals
    refine (w4_keep m ρ c _ (by decide)).trans ((w3_keep m ρ c _ (by simp)).trans (w2_keep m ρ c _ (by decide)))

theorem w5_keep (b : Ref sig .tc) (hb : b ∈ [main_v38, main_arg8, main_arg9]) :
    W5 m ρ c (Proc.devRef .tc b) = W4 m ρ c (Proc.devRef .tc b) := by
  show StableHlo.after hostOps2 (W4 m ρ c) (Proc.devRef .tc b) = W4 m ρ c (Proc.devRef .tc b)
  simp only [List.mem_cons, List.mem_nil_iff, or_false] at hb
  rcases hb with rfl | rfl | rfl <;> host_keeps

theorem w5_v50 : W5 m ρ c (Proc.devRef .tc main_v50) = mean m c (H2 m c) := by
  show StableHlo.after hostOps2 (W4 m ρ c) (Proc.devRef .tc main_v50) = _
  after_results_simp
  rw [w4_v38, w4_old m ρ c main_v1 (by simp), w4_old m ρ c main_v3 (by simp), w4_old m ρ c main_v10 (by simp), w1_v1, w1_v3, w1_v10]
  rfl
theorem w5_v51 : W5 m ρ c (Proc.devRef .tc main_v51) = shapeCast S1x64 (m ((c : Thread nD τ).loc main_arg10)) shapeCasts_S64_S1x64 := by
  show StableHlo.after hostOps2 (W4 m ρ c) (Proc.devRef .tc main_v51) = _
  after_results_simp
  rw [w4_old m ρ c main_arg10 (by simp), w1_arg m ρ c main_arg10 (by simp)]
  rfl

/-! ## The third region: the result -/

/-- The result array ends at the network of the argument arrays. -/
theorem w6_v52 : W6 m ρ c (Proc.devRef .tc main_v52)
    = net (mean m c) (X m c) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (W6_arr m ρ c 5).trans ((final2 (V5 m ρ) c).trans ?_)
  show final (W5 m ρ c (Proc.devRef .tc main_v50)) (W5 m ρ c (Proc.devRef .tc main_v38)) (W5 m ρ c (Proc.devRef .tc main_arg8))
    (W5 m ρ c (Proc.devRef .tc main_arg9)) (rowOf (W5 m ρ c (Proc.devRef .tc main_v51))) = _
  rw [w5_v50, w5_v51, w5_keep m ρ c main_v38 (by simp), w4_v38, w5_keep m ρ c main_arg8 (by simp), w5_keep m ρ c main_arg9 (by simp),
    w4_old m ρ c main_arg8 (by simp), w4_old m ρ c main_arg9 (by simp), w1_arg m ρ c main_arg8 (by simp), w1_arg m ρ c main_arg9 (by simp),
    rowOf_shapeCast]
  rfl

end Cert.Sage.K

end
-- ==== Proof.RefLayers.lean ====
/-
  The reference program's layers as functions of whole arrays.

  The reference computes, three times over, the mean aggregation of the current features along the edges — gather
  the source rows (a negative word wrapped once), add them up at their destination rows, divide by the destination's
  degree (at least one) — and a dense layer of the aggregated and the current features.  Here each of these is named
  as the composition of host operations the program spells, and the dense layer and the log-softmax are shown to be
  the index-by-index functions `hidden` and `final` of LibDenseLayers.lean: the products as sums, the repeated bias and
  constants at an entry, the row maximum as a running maximum from −∞ (the host takes the maximum of that with −∞
  once more, which changes nothing).  The aggregation is never opened: both programs apply the same one.
-/
import proofs.«175840_j87720412053738_2_alg».proof.Proof.Gen.ReferenceIdeal
import proofs.«175840_j87720412053738_2_alg».proof.Proof.LibDenseLayers

noncomputable section

open scoped BigOperators

namespace Cert.Sage.R

open Cert.ReferenceIdeal Cert.ReferenceIdeal.Gen
open Idealize.ShloMosaic Idealize.ShloMosaic.TcCoe Idealize.SL.Sem Idealize.ShloMosaic.StableHlo Idealize.ShloMosaic.ValueIdx

abbrev Feat := FVec Ideal S50000x128 .f32
abbrev Edges := IVec S2x800000 32
abbrev Words := IVec S800000 32
abbrev Col := FVec Ideal S50000x1 .f32

/-- The edges' source words: row 0 of the edge array. -/
def src (e : Edges) : Words :=
  shapeCast _ (extractStridedSlice S1x800000 ![0, 0] e slices_S2x800000_S1x800000_0_0) shapeCasts_S1x800000_S800000
/-- The edges' destination words: row 1 of the edge array. -/
def dst (e : Edges) : Words :=
  shapeCast _ (extractStridedSlice S1x800000 ![1, 0] e slices_S2x800000_S1x800000_1_0) shapeCasts_S1x800000_S800000

/-- Each node's in-degree, at least one, as a column: ones added up at the destination words. -/
def deg (d : Words) : Col :=
  broadcastInDim S50000x1 ![0] bcast_S50000_S50000x1_0
    (maximumf (F := Ideal) (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 d)
        (broadcastInDim S800000 ![] bcast_S_S800000 (constant (F := Ideal) S_ .f32 0x3F800000#32)))
      (broadcastInDim S50000 ![] bcast_S_S50000 (constant (F := Ideal) S_ .f32 0x3F800000#32)))

/-- The mean aggregation of features `h` along the edges (source words `s`, negative ones wrapped; destination words
    `d`; degree column `g`). -/
def agg (s d : Words) (g : Col) (h : Feat) : Feat :=
  Host.divf (F := Ideal) (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather gather_S50000x128_S800000x1_S800000x128_1_0_n_n_0_1_1128 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1 g)

/-- The pre-activation of a hidden layer of the host, as its operations spell it. -/
def hostMid (a x : Feat) (wl wr : FVec Ideal S128x128 .f32) (b : FVec Ideal S128 .f32) : Feat :=
  addf (F := Ideal) (addf (F := Ideal)
      (Host.dotGeneral (F := Ideal) dot_S50000x128_S128x128_S50000x128_1_0_0_1_n_n none a wl)
      (Host.dotGeneral (F := Ideal) dot_S50000x128_S128x128_S50000x128_1_0_0_1_n_n none x wr))
      (broadcastInDim S50000x128 ![0, 1] bcast_S1x128_S50000x128_0_1 (broadcastInDim S1x128 ![1] bcast_S128_S1x128_1 b))

/-- The host's activation of a hidden layer: the maximum with zero. -/
def hostRelu (z : Feat) : Feat :=
  maximumf (F := Ideal) z (broadcastInDim S50000x128 ![] bcast_S_S50000x128 (constant (F := Ideal) S_ .f32 0x00000000#32))

/-- The host's hidden dense layer. -/
def hostHidden (a x : Feat) (wl wr : FVec Ideal S128x128 .f32) (b : FVec Ideal S128 .f32) : Feat :=
  hostRelu (hostMid a x wl wr b)

/-- The pre-activation of the host's last layer. -/
def hostLast (a x : Feat) (wl wr : FVec Ideal S128x64 .f32) (b : FVec Ideal S64 .f32) :
    FVec Ideal S50000x64 .f32 :=
  addf (F := Ideal) (addf (F := Ideal)
      (Host.dotGeneral (F := Ideal) dot_S50000x128_S128x64_S50000x64_1_0_0_1_n_n none a wl)
      (Host.dotGeneral (F := Ideal) dot_S50000x128_S128x64_S50000x64_1_0_0_1_n_n none x wr))
      (broadcastInDim S50000x64 ![0, 1] bcast_S1x64_S50000x64_0_1 (broadcastInDim S1x64 ![1] bcast_S64_S1x64_1 b))

/-- Each row's maximum, as a column: the host's maximum-reduction from −∞, and its maximum with −∞ once more. -/
def topCol (z : FVec Ideal S50000x64 .f32) : FVec Ideal S50000x1 .f32 :=
  broadcastInDim S50000x1 ![0] bcast_S50000_S50000x1_0
    (maximumf (F := Ideal) (broadcastInDim S50000 ![] bcast_S_S50000 (constant (F := Ideal) S_ .f32 0xFF800000#32))
      (Host.reduce FloatOps.maximumf z (constant (F := Ideal) S_ .f32 0xFF800000#32) reducesTo_S50000x64_S50000_d1 h_S_))

/-- Each entry less its row's maximum. -/
def centred (z : FVec Ideal S50000x64 .f32) : FVec Ideal S50000x64 .f32 :=
  subf (F := Ideal) z (broadcastInDim S50000x64 ![0, 1] bcast_S50000x1_S50000x64_0_1 (topCol z))

/-- The logarithm of each row's sum of exponentials, as a column. -/
def logSumCol (y : FVec Ideal S50000x64 .f32) : FVec Ideal S50000x1 .f32 :=
  Host.log (F := Ideal) (broadcastInDim S50000x1 ![0] bcast_S50000_S50000x1_0
    (Host.reduceAdd (F := Ideal) (Host.exp (F := Ideal) y) (constant (F := Ideal) S_ .f32 0x00000000#32) reducesTo_S50000x64_S50000_d1 h_S_))

/-- The host's log-softmax along the rows, as its operations spell it. -/
def hostLsm (z : FVec Ideal S50000x64 .f32) : FVec Ideal S50000x64 .f32 :=
  subf (F := Ideal) (centred z) (broadcastInDim S50000x64 ![0, 1] bcast_S50000x1_S50000x64_0_1 (logSumCol (centred z)))

/-! ## The host's layers, index by index -/

/-- The host's hidden layer is the layer function. -/
theorem hostHidden_eq (a x : Feat) (wl wr : FVec Ideal S128x128 .f32) (b : FVec Ideal S128 .f32) :
    hostHidden a x wl wr b = hidden a x wl wr b := by
  funext i
  obtain ⟨p, q, rfl⟩ : ∃ (p : Fin 50000) (q : Fin 128), i = ix2 p q := ⟨i 0, i 1, eq_ix2 i⟩
  unfold hostHidden hostRelu hostMid
  refine (maximumf_apply _ _ (ix2 p q)).trans ?_
  exact congrArg₂ max
    (host_pre dot_S50000x128_S128x128_S50000x128_1_0_0_1_n_n Facts₀.dot_S50000x128_S128x128_S50000x128_1_0_0_1_n_n_wf rfl a x wl wr b
      bcast_S128_S1x128_1 bcast_S1x128_S50000x128_0_1 p q)
    (Cert.Lib.bcast_scalar_apply bcast_S_S50000x128 0x00000000#32 (ix2 p q))

/-- The pre-activation of the host's last layer, at (p, q). -/
theorem hostLast_apply (a x : Feat) (wl wr : FVec Ideal S128x64 .f32) (b : FVec Ideal S64 .f32)
    (p : Fin 50000) (q : Fin 64) : hostLast a x wl wr b (ix2 p q) = pre a x wl wr b p q := by
  unfold hostLast
  exact host_pre dot_S50000x128_S128x64_S50000x64_1_0_0_1_n_n Facts₀.dot_S50000x128_S128x64_S50000x64_1_0_0_1_n_n_wf rfl a x wl wr b
      bcast_S64_S1x64_1 bcast_S1x64_S50000x64_0_1 p q

/-- Dropping the last axis of a [50000, 64] array leaves [50000]. -/
theorem hred : (⟨2, ![50000, 64]⟩ : Shape).Reduces [1] ⟨1, ![50000]⟩ :=
  ⟨rfl, Nat.one_pos, fun b => match b with | ⟨0, _⟩ => rfl⟩

/-- Row p's running maximum from −∞. -/
def top (z : FVec Ideal S50000x64 .f32) (p : Fin 50000) : EReal :=
  (Finset.univ : Finset (Fin 64)).fold max (Ideal.ofBits .f32 0xFF800000#32) (fun k => z (ix2 p k))

theorem topCol_apply (z : FVec Ideal S50000x64 .f32) (p : Fin 50000) (u : Fin 1) : topCol z (ix2 p u) = top z p := by
  unfold topCol
  refine (Cert.Lib.bcast_col_apply _ bcast_S50000_S50000x1_0 p u).trans ?_
  refine (maximumf_apply _ _ (ix1 p)).trans ?_
  refine (congrArg₂ max (Cert.Lib.bcast_scalar_apply bcast_S_S50000 0xFF800000#32 (ix1 p))
    (Cert.Lib.host_rowMax_apply hred z 0xFF800000#32 reducesTo_S50000x64_S50000_d1 h_S_ p)).trans ?_
  exact max_fold_start _ _ _

theorem centred_apply (z : FVec Ideal S50000x64 .f32) (p : Fin 50000) (q : Fin 64) :
    centred z (ix2 p q) = z (ix2 p q) - top z p := by
  unfold centred
  refine (subf_apply _ _ (ix2 p q)).trans ?_
  exact congrArg (fun t => z (ix2 p q) - t)
    ((Cert.Lib.bcast_col_rows_apply (topCol z) bcast_S50000x1_S50000x64_0_1 p q).trans (topCol_apply z p 0))

theorem logSumCol_apply (y : FVec Ideal S50000x64 .f32) (p : Fin 50000) (u : Fin 1) :
    logSumCol y (ix2 p u) = Ideal.log (∑ k : Fin 64, Ideal.exp (y (ix2 p k))) := by
  unfold logSumCol
  refine (Cert.Lib.host_log_apply _ (ix2 p u)).trans ?_
  refine congrArg Ideal.log ?_
  refine (Cert.Lib.bcast_col_apply _ bcast_S50000_S50000x1_0 p u).trans ?_
  exact Cert.Lib.host_rowSum_apply hred (Host.exp (F := Ideal) y) reducesTo_S50000x64_S50000_d1 h_S_ p

/-- The host's log-softmax at (p, q): the entry less the row's running maximum from −∞, less the logarithm of the
    row's sum of exponentials of such differences. -/
theorem hostLsm_apply (z : FVec Ideal S50000x64 .f32) (p : Fin 50000) (q : Fin 64) :
    hostLsm z (ix2 p q) = (z (ix2 p q) - top z p) - Ideal.log (∑ k : Fin 64, Ideal.exp (z (ix2 p k) - top z p)) := by
  unfold hostLsm
  refine (subf_apply _ _ (ix2 p q)).trans ?_
  refine congrArg₂ (fun s t : EReal => s - t) (centred_apply z p q) ?_
  refine (Cert.Lib.bcast_col_rows_apply (logSumCol (centred z)) bcast_S50000x1_S50000x64_0_1 p q).trans ?_
  refine (logSumCol_apply (centred z) p 0).trans ?_
  exact congrArg Ideal.log (Finset.sum_congr rfl fun k _ => congrArg Ideal.exp (centred_apply z p k))

/-- The host's last layer is the layer function. -/
theorem hostFinal_eq (a x : Feat) (wl wr : FVec Ideal S128x64 .f32) (b : FVec Ideal S64 .f32) :
    hostLsm (hostLast a x wl wr b) = final a x wl wr b := by
  funext i
  obtain ⟨p, q, rfl⟩ : ∃ (p : Fin 50000) (q : Fin 64), i = ix2 p q := ⟨i 0, i 1, eq_ix2 i⟩
  refine (hostLsm_apply _ p q).trans ?_
  have hz : ∀ k : Fin 64, hostLast a x wl wr b (ix2 p k) = pre a x wl wr b p k := fun k => hostLast_apply a x wl wr b p k
  have ht : top (hostLast a x wl wr b) p = rowTop a x wl wr b p := by
    unfold top rowTop
    exact congrArg (fun f => Finset.fold max (Ideal.ofBits .f32 0xFF800000#32) f (Finset.univ : Finset (Fin 64))) (funext hz)
  rw [final_ix2]
  unfold lsm
  rw [ht, hz q]
  exact congrArg (fun s : EReal => (pre a x wl wr b p q - rowTop a x wl wr b p) - Ideal.log s)
    (Finset.sum_congr rfl fun k _ => by rw [hz k])

end Cert.Sage.R

end
-- ==== Proof.LibAfterAppend.lean ====
/-
  The buffer contents after two stretches of host operations run one after the other are the contents after the
  second stretch, taken from the contents after the first.
-/
import Idealize.ShloMosaic.Lib.StableHlo.Run

namespace Cert.Lib

open Idealize.ShloMosaic Idealize.ShloMosaic.StableHlo

variable {τ : Topo} {sig : RefSig} {Val : EltTy → Type}

/-- The fold of a concatenation of operation lists is the fold of the second list from the fold of the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib
-- ==== Proof.LibTypedRefs.lean ====
/-
  A typed reference's two transports cancel.

  A tensor value of a module-local function is held in a buffer whose type equals the value's; contents move between the
  two types by transport along that equation, there and back.  Back after there is the identity.
-/
import Idealize.ShloMosaic.Lib.StableHlo

namespace Cert.Lib

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, h2, h3⟩ := x
  subst h
  rfl

end Cert.Lib
-- ==== Proof.RefRun.lean ====
/-
  The reference program's run and its result as one function of its arguments.

  The program is a straight line of 118 host operations.  Its list is cut into six stretches — for each of the three
  layers, the aggregation with the two products and the bias, then the activation — and the buffer contents after a
  stretch are read off that stretch's own operations: a short fold each.  The first stretch finds the arguments and
  leaves the first layer's pre-activation beside the edges' source and destination words, which later stretches read
  again; an argument array is written by no operation at all.  Composed, the result array ends at the three-layer network
  of LibDenseLayers.lean over the mean aggregation along the edges (RefLayers.lean), of the argument arrays, and the arguments end
  as launched.  (The activations are module-local functions, whose values sit in typed buffers: their contents pass
  through a transport there and back, which cancels.)
-/
import proofs.«175840_j87720412053738_2_alg».proof.Proof.ReferenceRunP
import proofs.«175840_j87720412053738_2_alg».proof.Proof.RefLayers
import proofs.«175840_j87720412053738_2_alg».proof.Proof.LibAfterAppend
import proofs.«175840_j87720412053738_2_alg».proof.Proof.LibTypedRefs

set_option maxRecDepth 16384

noncomputable section

namespace Cert.Sage.R

open Cert.ReferenceIdeal Cert.ReferenceIdeal.Gen Cert.ReferenceIdeal.ValueP Cert.Sage
open Idealize.ShloMosaic Idealize.ShloMosaic.TcCoe Idealize.SL.Sem Idealize.ShloMosaic.StableHlo Idealize.ShloMosaic.ValueIdx

/-- The six stretches: per layer, the dense part on the aggregated features, then the activation. -/
abbrev opsA1 : List (HloOp τ sig (Elt Ideal)) := (ops (F := Ideal)).take 35
abbrev opsA2 : List (HloOp τ sig (Elt Ideal)) := ((ops (F := Ideal)).drop 35).take 3
abbrev opsB1 : List (HloOp τ sig (Elt Ideal)) := ((ops (F := Ideal)).drop 38).take 31
abbrev opsB2 : List (HloOp τ sig (Elt Ideal)) := ((ops (F := Ideal)).drop 69).take 3
abbrev opsC1 : List (HloOp τ sig (Elt Ideal)) := ((ops (F := Ideal)).drop 72).take 31
abbrev opsC2 : List (HloOp τ sig (Elt Ideal)) := (ops (F := Ideal)).drop 103

theorem ops_cut : (ops (F := Ideal)) = opsA1 ++ (opsA2 ++ (opsB1 ++ (opsB2 ++ (opsC1 ++ opsC2)))) := by
  have e1 : opsC1 ++ opsC2 = (ops (F := Ideal)).drop 72 := by
    show List.take 31 (List.drop 72 ops) ++ List.drop 103 ops = _
    rw [show List.drop 103 (ops (F := Ideal)) = List.drop 31 (List.drop 72 ops) from by rw [List.drop_drop], List.take_append_drop]
  have e2 : opsB2 ++ (ops (F := Ideal)).drop 72 = (ops (F := Ideal)).drop 69 := by
    show List.take 3 (List.drop 69 ops) ++ List.drop 72 ops = _
    rw [show List.drop 72 (ops (F := Ideal)) = List.drop 3 (List.drop 69 ops) from by rw [List.drop_drop], List.take_append_drop]
  have e3 : opsB1 ++ (ops (F := Ideal)).drop 69 = (ops (F := Ideal)).drop 38 := by
    show List.take 31 (List.drop 38 ops) ++ List.drop 69 ops = _
    rw [show List.drop 69 (ops (F := Ideal)) = List.drop 31 (List.drop 38 ops) from by rw [List.drop_drop], List.take_append_drop]
  have e4 : opsA2 ++ (ops (F := Ideal)).drop 38 = (ops (F := Ideal)).drop 35 := by
    show List.take 3 (List.drop 35 ops) ++ List.drop 38 ops = _
    rw [show List.drop 38 (ops (F := Ideal)) = List.drop 3 (List.drop 35 ops) from by rw [List.drop_drop], List.take_append_drop]
  rw [e1, e2, e3, e4]
  exact (List.take_append_drop 35 ops).symm

variable (V : Valuation τ sig (Elt Ideal))

/-- The mean aggregation along the edges whose words are `s`, `d`. -/
abbrev mean (s d : Words) : Feat → Feat := agg s d (deg d)

/-! ## No operation writes an argument array that a later layer reads -/

set_option maxHeartbeats 4000000 in
/-- No operation writes an argument array. -/
theorem arg_unwritten (b : Ref sig .tc)
    (hb : b ∈ [main_arg0, main_arg1, main_arg2, main_arg3, main_arg4, main_arg5, main_arg6, main_arg7, main_arg8, main_arg9, main_arg10]) :
    ∀ op ∈ (ops (F := Ideal)), Proc.devRef (τ := τ) .tc b ∉ op.writes := by
  simp only [List.mem_cons, List.mem_nil_iff, or_false] at hb
  rcases hb with rfl | rfl | rfl | rfl | rfl | rfl | rfl | rfl | rfl | rfl | rfl <;>
    (refine List.forall_iff_forall_mem.mp ?_
     simp only [ops, List.Forall, nullary_writes, unary_writes, binary_writes, ternary_writes, reshape_writes, Finset.mem_singleton]
     repeat' apply And.intro
     all_goals exact devRef_ne_of_ne (by decide))

/-- So such an array keeps its contents through any part of the operation list. -/
theorem arg_kept (b : Ref sig .tc)
    (hb : b ∈ [main_arg0, main_arg1, main_arg2, main_arg3, main_arg4, main_arg5, main_arg6, main_arg7, main_arg8, main_arg9, main_arg10])
    (l : List (HloOp τ sig (Elt Ideal))) (hl : ∀ op ∈ l, op ∈ (ops (F := Ideal))) :
    after l V (Proc.devRef .tc b) = V (Proc.devRef .tc b) :=
  after_of_forall_not_mem l V fun op hop => arg_unwritten b hb op (hl op hop)

/-! ## The first layer -/

theorem a1_v28 : after opsA1 V (Proc.devRef .tc main_v28)
    = hostMid (mean (src (V (Proc.devRef .tc main_arg1))) (dst (V (Proc.devRef .tc main_arg1))) (V (Proc.devRef .tc main_arg0)))
        (V (Proc.devRef .tc main_arg0)) (V (Proc.devRef .tc main_arg2)) (V (Proc.devRef .tc main_arg3)) (V (Proc.devRef .tc main_arg4)) := by
  simp only [opsA1, ops, List.take_succ_cons, List.take_zero]
  after_results_simp
  rfl
theorem a1_v1 : after opsA1 V (Proc.devRef .tc main_v1) = src (V (Proc.devRef .tc main_arg1)) := by
  simp only [opsA1, ops, List.take_succ_cons, List.take_zero]
  after_results_simp
  rfl
theorem a1_v3 : after opsA1 V (Proc.devRef .tc main_v3) = dst (V (Proc.devRef .tc main_arg1)) := by
  simp only [opsA1, ops, List.take_succ_cons, List.take_zero]
  after_results_simp
  rfl

theorem a2_v29 : after opsA2 V (Proc.devRef .tc main_v29) = hostRelu (V (Proc.devRef .tc main_v28)) := by
  simp only [opsA2, ops, List.drop_succ_cons, List.drop_zero, List.take_succ_cons, List.take_zero]
  after_results_simp
  simp only [Cert.Lib.ofBuf_toBuf]
  refine eq_of_heq ((cast_heq _ _).trans (heq_of_eq ?_))
  unfold hostRelu
  exact congrArg (fun z => maximumf (F := Ideal) z _) (eq_of_heq (cast_heq _ _))
theorem a2_v1 : after opsA2 V (Proc.devRef .tc main_v1) = V (Proc.devRef .tc main_v1) := by
  simp only [opsA2, ops, List.drop_succ_cons, List.drop_zero, List.take_succ_cons, List.take_zero]
  after_results_simp
theorem a2_v3 : after opsA2 V (Proc.devRef .tc main_v3) = V (Proc.devRef .tc main_v3) := by
  simp only [opsA2, ops, List.drop_succ_cons, List.drop_zero, List.take_succ_cons, List.take_zero]
  after_results_simp

/-! ## The second layer -/

theorem b1_v54 : after opsB1 V (Proc.devRef .tc main_v54)
    = hostMid (mean (V (Proc.devRef .tc main_v1)) (V (Proc.devRef .tc main_v3)) (V (Proc.devRef .tc main_v29)))
        (V (Proc.devRef .tc main_v29)) (V (Proc.devRef .tc main_arg5)) (V (Proc.devRef .tc main_arg6)) (V (Proc.devRef .tc main_arg7)) := by
  simp only [opsB1, ops, List.drop_succ_cons, List.drop_zero, List.take_succ_cons, List.take_zero]
  after_results_simp
  rfl
theorem b1_v1 : after opsB1 V (Proc.devRef .tc main_v1) = V (Proc.devRef .tc main_v1) := by
  simp only [opsB1, ops, List.drop_succ_cons, List.drop_zero, List.take_succ_cons, List.take_zero]
  after_results_simp
theorem b1_v3 : after opsB1 V (Proc.devRef .tc main_v3) = V (Proc.devRef .tc main_v3) := by
  simp only [opsB1, ops, List.drop_succ_cons, List.drop_zero, List.take_succ_cons, List.take_zero]
  after_results_simp

theorem b2_v55 : after opsB2 V (Proc.devRef .tc main_v55) = hostRelu (V (Proc.devRef .tc main_v54)) := by
  simp only [opsB2, ops, List.drop_succ_cons, List.drop_zero, List.take_succ_cons, List.take_zero]
  after_results_simp
  simp only [Cert.Lib.ofBuf_toBuf]
  refine eq_of_heq ((cast_heq _ _).trans (heq_of_eq ?_))
  unfold hostRelu
  exact congrArg (fun z => maximumf (F := Ideal) z _) (eq_of_heq (cast_heq _ _))
theorem b2_v1 : after opsB2 V (Proc.devRef .tc main_v1) = V (Proc.devRef .tc main_v1) := by
  simp only [opsB2, ops, List.drop_succ_cons, List.drop_zero, List.take_succ_cons, List.take_zero]
  after_results_simp
theorem b2_v3 : after opsB2 V (Proc.devRef .tc main_v3) = V (Proc.devRef .tc main_v3) := by
  simp only [opsB2, ops, List.drop_succ_cons, List.drop_zero, List.take_succ_cons, List.take_zero]
  after_results_simp

/-! ## The last layer -/

theorem c1_v80 : after opsC1 V (Proc.devRef .tc main_v80)
    = hostLast (mean (V (Proc.devRef .tc main_v1)) (V (Proc.devRef .tc main_v3)) (V (Proc.devRef .tc main_v55)))
        (V (Proc.devRef .tc main_v55)) (V (Proc.devRef .tc main_arg8)) (V (Proc.devRef .tc main_arg9)) (V (Proc.devRef .tc main_arg10)) := by
  simp only [opsC1, ops, List.drop_succ_cons, List.drop_zero, List.take_succ_cons, List.take_zero]
  after_results_simp
  rfl

theorem c2_v81 : after opsC2 V (Proc.devRef .tc main_v81) = hostLsm (V (Proc.devRef .tc main_v80)) := by
  simp only [opsC2, ops, List.drop_succ_cons, List.drop_zero]
  after_results_simp
  simp only [Cert.Lib.ofBuf_toBuf]
  refine eq_of_heq ((cast_heq _ _).trans (heq_of_eq ?_))
  have e : ((TRef.of (sig := sig) (T := ⟨S50000x64, .f32⟩) main_v80).ofBuf (V (Proc.devRef .tc main_v80)) : FVec Ideal S50000x64 .f32)
      = (V (Proc.devRef .tc main_v80)) := eq_of_heq (cast_heq _ _)
  rw [e]
  rfl

/-! ## The whole program -/

/-- A hidden layer of the host is the layer function. -/
theorem relu_mid (a x : Feat) (wl wr : FVec Ideal S128x128 .f32) (b : FVec Ideal S128 .f32) :
    hostRelu (hostMid a x wl wr b) = hidden a x wl wr b := hostHidden_eq a x wl wr b

theorem sub_A1 : ∀ op ∈ opsA1, op ∈ (ops (F := Ideal)) := fun _ h => List.mem_of_mem_take h
theorem sub_A2 : ∀ op ∈ opsA2, op ∈ (ops (F := Ideal)) := fun _ h => List.mem_of_mem_drop (List.mem_of_mem_take h)
theorem sub_B1 : ∀ op ∈ opsB1, op ∈ (ops (F := Ideal)) := fun _ h => List.mem_of_mem_drop (List.mem_of_mem_take h)
theorem sub_B2 : ∀ op ∈ opsB2, op ∈ (ops (F := Ideal)) := fun _ h => List.mem_of_mem_drop (List.mem_of_mem_take h)

/-- The result buffer after all 118 operations is the network of the argument buffers. -/
theorem result_eq : after (ops (F := Ideal)) V (Proc.devRef .tc main_v81)
    = net (mean (src (V (Proc.devRef .tc main_arg1))) (dst (V (Proc.devRef .tc main_arg1)))) (V (Proc.devRef .tc main_arg0))
        (V (Proc.devRef .tc main_arg2)) (V (Proc.devRef .tc main_arg3)) (V (Proc.devRef .tc main_arg4))
        (V (Proc.devRef .tc main_arg5)) (V (Proc.devRef .tc main_arg6)) (V (Proc.devRef .tc main_arg7))
        (V (Proc.devRef .tc main_arg8)) (V (Proc.devRef .tc main_arg9)) (V (Proc.devRef .tc main_arg10)) := by
  rw [ops_cut]
  simp only [Cert.Lib.after_append]
  rw [c2_v81, c1_v80, b2_v55, b2_v1, b2_v3,
    arg_kept _ main_arg8 (by simp) opsB2 sub_B2, arg_kept _ main_arg9 (by simp) opsB2 sub_B2, arg_kept _ main_arg10 (by simp) opsB2 sub_B2,
    b1_v54, b1_v1, b1_v3,
    arg_kept _ main_arg8 (by simp) opsB1 sub_B1, arg_kept _ main_arg9 (by simp) opsB1 sub_B1, arg_kept _ main_arg10 (by simp) opsB1 sub_B1,
    a2_v29, a2_v1, a2_v3,
    arg_kept _ main_arg5 (by simp) opsA2 sub_A2, arg_kept _ main_arg6 (by simp) opsA2 sub_A2, arg_kept _ main_arg7 (by simp) opsA2 sub_A2,
    arg_kept _ main_arg8 (by simp) opsA2 sub_A2, arg_kept _ main_arg9 (by simp) opsA2 sub_A2, arg_kept _ main_arg10 (by simp) opsA2 sub_A2,
    a1_v28, a1_v1, a1_v3,
    arg_kept _ main_arg5 (by simp) opsA1 sub_A1, arg_kept _ main_arg6 (by simp) opsA1 sub_A1, arg_kept _ main_arg7 (by simp) opsA1 sub_A1,
    arg_kept _ main_arg8 (by simp) opsA1 sub_A1, arg_kept _ main_arg9 (by simp) opsA1 sub_A1, arg_kept _ main_arg10 (by simp) opsA1 sub_A1,
    hostFinal_eq, relu_mid, relu_mid]
  rfl

/-- THE RUN: from any memory with zero counters every weakly fair execution of the reference terminates, with the
    result array at the network of the argument arrays and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v81)
        = net (mean (src (m ((c.tc : Thread nD τ).loc main_arg1))) (dst (m ((c.tc : Thread nD τ).loc main_arg1)))) (m ((c.tc : Thread nD τ).loc main_arg0))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v81).trans (result_eq (launchContents m c)),
      (h c main_arg0).trans (arg_kept _ main_arg0 (by simp) ops fun _ h => h),
      (h c main_arg1).trans (arg_kept _ main_arg1 (by simp) ops fun _ h => h),
      (h c main_arg2).trans (arg_kept _ main_arg2 (by simp) ops fun _ h => h),
      (h c main_arg3).trans (arg_kept _ main_arg3 (by simp) ops fun _ h => h),
      (h c main_arg4).trans (arg_kept _ main_arg4 (by simp) ops fun _ h => h),
      (h c main_arg5).trans (arg_kept _ main_arg5 (by simp) ops fun _ h => h),
      (h c main_arg6).trans (arg_kept _ main_arg6 (by simp) ops fun _ h => h),
      (h c main_arg7).trans (arg_kept _ main_arg7 (by simp) ops fun _ h => h),
      (h c main_arg8).trans (arg_kept _ main_arg8 (by simp) ops fun _ h => h),
      (h c main_arg9).trans (arg_kept _ main_arg9 (by simp) ops fun _ h => h),
      (h c main_arg10).trans (arg_kept _ main_arg10 (by simp) ops fun _ h => h)⟩)
    (run_seq scopedRefs_eq scopedSems_eq defs main (fun _ => ops) main_eq (fun _ => ops_sub) m ρ)

end Cert.Sage.R

end
-- ==== Proof.lean ====
/-
  A three-layer graph-SAGE network with mean aggregation, tiled dense layers against plain jnp.

  Both programs compute, for node features x, an edge list and three layers' weights and biases,

      h₁ = max(mean(x)·W₁ₗ + x·W₁ᵣ + b₁, 0),   h₂ = max(mean(h₁)·Wₘₗ + h₁·Wₘᵣ + bₘ, 0),
      out = log_softmax(mean(h₂)·W₂ₗ + h₂·W₂ᵣ + b₂)   along each row,

  where mean(h) gathers h's rows at the edges' source nodes, adds them up at the destination nodes and divides by the
  in-degree (at least one).  The kernel program does the aggregation on the host and each dense layer in a pipelined
  region over 25 tiles of 2000 rows, with the operands rounded to bf16 on the way into the products; the reference does
  everything on the host.  At the ideal values a change of float format is the identity and a product into a zero
  accumulator is the plain sum of products, so:

  * each region leaves its result array at the layer's function of the arrays it is entered with (KernelBody.lean for a
    tile, KernelTiles.lean from tiles to the array), and reading the contents at every boundary between @main's segments
    gives the kernel program's result as the network `net` of LibDenseLayers.lean over its aggregation (KernelValue.lean, over the
    run of KernelRun.lean);
  * the reference's operation list, cut after each layer, gives the same network over its own aggregation
    (RefLayers.lean, RefRun.lean);
  * the two aggregations are the same composition of the same host operations (`mean_eq`, by unfolding the names), and
    every sum, product, maximum and difference is applied in the same order on both sides, so the two results are equal
    on all extended reals: the precondition is not used.

  The frames of the two kernel programs are the generated frame certificates; the
  reference's frame is its run with the result dropped; the ideal pass rewrote nothing, so `preserves` is trivial.
-/
import proofs.«175840_j87720412053738_2_alg».proof.Defs
import proofs.«175840_j87720412053738_2_alg».proof.Proof.Gen.Kernel
import proofs.«175840_j87720412053738_2_alg».proof.Proof.Gen.KernelIdeal
import proofs.«175840_j87720412053738_2_alg».proof.Proof.Gen.ReferenceIdeal
import proofs.«175840_j87720412053738_2_alg».proof.Proof.Gen.Pre_finite_inputs
import proofs.«175840_j87720412053738_2_alg».proof.Proof.KernelFrameP
import proofs.«175840_j87720412053738_2_alg».proof.Proof.KernelValue
import proofs.«175840_j87720412053738_2_alg».proof.Proof.RefRun
import Idealize.ShloMosaic.Adequacy
import Idealize.ShloMosaic.Init

noncomputable section

namespace Cert.Proof

open Idealize.ShloMosaic Idealize.SL.Sem Cert.Sage

theorem frame_kernel : Cert.frame_Kernel := fun m ρ _ => Cert.Kernel.GenP.frame m ρ

theorem frame_kernelIdeal : Cert.frame_KernelIdeal := fun m ρ _ => Cert.KernelIdeal.GenP.frame m ρ

/-- The reference's frame: its run, the result dropped. -/
theorem frame_referenceIdeal : Cert.frame_ReferenceIdeal := fun m ρ _ =>
  (θ_run Cert.ReferenceIdeal.defs _ _).mono (fun _ h c => (h c).2) (Cert.Sage.R.run m ρ)

/-- The ideal pass rewrote no operation. -/
theorem preserves : Cert.preserves_Kernel_KernelIdeal := trivial

/-- The two programs aggregate alike: the same host operations composed in the same way (the kernel program forms the
    degree column once, the reference once per layer, of the same destination words). -/
theorem mean_eq (e : IVec Cert.KernelIdeal.S2x800000 32) :
    Cert.Sage.K.agg (Cert.Sage.K.src e) (Cert.Sage.K.dst e) (Cert.Sage.K.deg (Cert.Sage.K.dst e))
      = Cert.Sage.R.agg (Cert.Sage.R.src e) (Cert.Sage.R.dst e) (Cert.Sage.R.deg (Cert.Sage.R.dst e)) := by
  funext h
  rfl

/-- Run from memories that agree on the arguments, both idealized programs end with the network of the arguments in
    their result arrays. -/
theorem algebraic : Cert.algebraic_KernelIdeal_ReferenceIdeal := by
  intro m ρ m' ρ' _ hagree
  refine ⟨_, (θ_run Cert.KernelIdeal.defs _ _).mono (fun r h c => ⟨(h c).1.trans (Cert.Sage.K.w6_v52 m ρ c), (h c).2⟩)
    (Cert.Sage.K.run_result m ρ), ?_⟩
  refine (θ_run Cert.ReferenceIdeal.defs _ _).mono (fun _ h c => ⟨(h c).1.trans ?_, (h c).2⟩) (Cert.Sage.R.run m' ρ')
  obtain ⟨a0, a1, a2, a3, a4, a5, a6, a7, a8, a9, a10⟩ := hagree c
  rw [a0, a1, a2, a3, a4, a5, a6, a7, a8, a9, a10]
  exact congrArg (fun f => net f _ _ _ _ _ _ _ _ _ _) (mean_eq _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
